-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8192x128 : Shape := ⟨3, ![32, 8192, 128]⟩
abbrev S64x128 : Shape := ⟨2, ![64, 128]⟩
abbrev S64 : Shape := ⟨1, ![64]⟩
abbrev S_ : Shape := ⟨0, ![]⟩

class Facts : Prop where
  bcast_S_S32x8192x128 : S_.BroadcastsInDim S32x8192x128 (![] : Fin 0 → Fin S32x8192x128.rank)
  reducesTo_S32x8192x128_S_d0_1_2 : S32x8192x128.ReducesTo [0, 1, 2] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S32x8192x128 .f32) (main_arg1 : FVec F S64x128 .f32) (main_arg2 : FVec F S64x128 .f32) (main_arg3 : FVec F S64 .f32) : IVec S_ 1 :=
  let main_v0 : FVec F S32x8192x128 .f32 := Host.absf main_arg0
  let main_cst : FVec F S_ .f32 := constant S_ .f32 0x7F800000#32
  let main_v1 : FVec F S32x8192x128 .f32 := broadcastInDim S32x8192x128 ![] bcast_S_S32x8192x128 main_cst
  let main_v2 : IVec S32x8192x128 1 := cmpf .olt main_v0 main_v1
  let main_c : IVec S_ 1 := constantI S_ 1 1#1
  let main_v3 : IVec S_ 1 := (fun x v => Host.reduce IntOp.andi x v reducesTo_S32x8192x128_S_d0_1_2 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S32x8192x128 : Shape := ⟨3, ![32, 8192, 128]⟩
abbrev S64x128 : Shape := ⟨2, ![64, 128]⟩
abbrev S64 : Shape := ⟨1, ![64]⟩
abbrev S32x64x128 : Shape := ⟨3, ![32, 64, 128]⟩
abbrev S1x2048x128 : Shape := ⟨3, ![1, 2048, 128]⟩
abbrev S1x64x128 : Shape := ⟨3, ![1, 64, 128]⟩
abbrev S64x1 : Shape := ⟨2, ![64, 1]⟩
abbrev S2048x128 : Shape := ⟨2, ![2048, 128]⟩
abbrev S2048 : Shape := ⟨1, ![2048]⟩
abbrev S2048x1 : Shape := ⟨2, ![2048, 1]⟩
abbrev S2048x64 : Shape := ⟨2, ![2048, 64]⟩
abbrev S1x64 : Shape := ⟨2, ![1, 64]⟩
abbrev S32x8192 : Shape := ⟨2, ![32, 8192]⟩
abbrev S_ : Shape := ⟨0, ![]⟩
abbrev S32 : Shape := ⟨1, ![32]⟩
abbrev S32x1 : Shape := ⟨2, ![32, 1]⟩

abbrev nBuf : Space → Nat
  | .hbm => 16
  | .vmem => 9
  | .smem => 0
  | _ => 0

abbrev bufTy : (tb : Table) → Fin (tcTables nBuf tb) → BufTy
  | .hbm, ⟨0, _⟩ => ⟨S32x8192x128, .f32⟩
  | .hbm, ⟨1, _⟩ => ⟨S64x128, .f32⟩
  | .hbm, ⟨2, _⟩ => ⟨S64x128, .f32⟩
  | .hbm, ⟨3, _⟩ => ⟨S64, .f32⟩
  | .hbm, ⟨4, _⟩ => ⟨S32x64x128, .f32⟩
  | .hbm, ⟨5, _⟩ => ⟨S32x8192, .f32⟩
  | .hbm, ⟨6, _⟩ => ⟨S32x8192, .f32⟩
  | .hbm, ⟨7, _⟩ => ⟨S_, .f32⟩
  | .hbm, ⟨8, _⟩ => ⟨S32, .f32⟩
  | .hbm, ⟨9, _⟩ => ⟨S32x1, .f32⟩
  | .hbm, ⟨10, _⟩ => ⟨S32x1, .f32⟩
  | .hbm, ⟨11, _⟩ => ⟨S_, .f32⟩
  | .hbm, ⟨12, _⟩ => ⟨S32x1, .f32⟩
  | .hbm, ⟨13, _⟩ => ⟨S32x1, .f32⟩
  | .hbm, ⟨14, _⟩ => ⟨S32x8192, .f32⟩
  | .hbm, ⟨15, _⟩ => ⟨S32x8192, .f32⟩
  | .local _ .vmem, ⟨0, _⟩ => ⟨S1x2048x128, .f32⟩
  | .local _ .vmem, ⟨1, _⟩ => ⟨S1x2048x128, .f32⟩
  | .local _ .vmem, ⟨2, _⟩ => ⟨S64x128, .f32⟩
  | .local _ .vmem, ⟨3, _⟩ => ⟨S64, .f32⟩
  | .local _ .vmem, ⟨4, _⟩ => ⟨S64x128, .f32⟩
  | .local _ .vmem, ⟨5, _⟩ => ⟨S1x64x128, .f32⟩
  | .local _ .vmem, ⟨6, _⟩ => ⟨S1x64x128, .f32⟩
  | .local _ .vmem, ⟨7, _⟩ => ⟨S64x128, .f32⟩
  | .local _ .vmem, ⟨8, _⟩ => ⟨S64x1, .f32⟩
  | _, _ => ⟨S32x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c3_i32 : BitVec 32 := 3#32
  let v46 : BitVec 1 := Scalar.cmpi .eq arg1 c3_i32
  let v47 : BitVec 32 := Scalar.extui v46
  let c0_i32_22 : BitVec 32 := 0#32
  let v48 : BitVec 1 := Scalar.cmpi .ne v47 c0_i32_22
  v48

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  reduces_S2048x128_S2048 : S2048x128.Reduces [1] S2048
  shapeCasts_S2048_S2048x1 : S2048.ShapeCasts S2048x1
  broadcasts_S2048x1_S2048x128 : S2048x1.Broadcasts S2048x128
  bitsLt_bf16_f32 : FTy.bits .bf16 < FTy.bits .f32
  inb_S64_S64_0 : ∀ a, (![0] : Fin 1 → Nat) a + S64.size a ≤ S64.size a
  h_S64 : 0 < S64.numel
  shapeCasts_S64_S1x64 : S64.ShapeCasts S1x64
  broadcasts_S1x64_S2048x64 : S1x64.Broadcasts S2048x64
  reduces_S2048x64_S2048 : S2048x64.Reduces [1] S2048
  broadcasts_S2048x1_S2048x64 : S2048x1.Broadcasts S2048x64
  broadcasts_S64x1_S64x128 : S64x1.Broadcasts S64x128
  reduces_S64x128_S64 : S64x128.Reduces [1] S64
  shapeCasts_S64_S64x1 : S64.ShapeCasts S64x1
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  shapeCasts_S64x128_S1x64x128 : S64x128.ShapeCasts S1x64x128
  shapeCasts_S32x64x128_S32x8192 : S32x64x128.ShapeCasts S32x8192
  reducesTo_S32x8192_S32_d1 : S32x8192.ReducesTo [1] S32
  h_S_ : 0 < S_.numel
  bcast_S32_S32x1_0 : S32.BroadcastsInDim S32x1 (![0] : Fin 1 → Fin S32x1.rank)
  bcast_S_S32x1 : S_.BroadcastsInDim S32x1 (![] : Fin 0 → Fin S32x1.rank)
  bcast_S32x1_S32x8192_0_1 : S32x1.BroadcastsInDim S32x8192 (![0, 1] : Fin 2 → Fin S32x8192.rank)
  dot_S2048x128_S64x128_S2048x64_1_1_0_0_n_n_wf : DotDims.WF S2048x128 S64x128 S2048x64 [1] [1] [0] [0] [] []
  dot_S2048x64_S2048x128_S64x128_0_0_1_1_n_n_wf : DotDims.WF S2048x64 S2048x128 S64x128 [0] [0] [1] [1] [] []
  dot_S2048x64_S2048x1_S64x1_0_0_1_1_n_n_wf : DotDims.WF S2048x64 S2048x1 S64x1 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x128.size a ≤ S32x8192x128.size a
  hwx0_0 : ∀ i : grid0.Coords, EltTy.bits .f32 = 32 ∨ (Rect.block (s := S32x8192x128) S1x2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x128.size a ≤ S32x64x128.size a
  hwx0_4 : ∀ i : grid0.Coords, EltTy.bits .f32 = 32 ∨ (Rect.block (s := S32x64x128) S1x64x128.size (cc0_transform_4 i) (hinb0_4 i)).WholeWords (EltTy.packing .f32)

variable [Facts₀]

def dot_S2048x128_S64x128_S2048x64_1_1_0_0_n_n : DotDims S2048x128 S64x128 S2048x64 where
  lhsContracting := [1]
  rhsContracting := [1]
  lhsNonContracting := [0]
  rhsNonContracting := [0]
  lhsBatch := []
  rhsBatch := []
  wf := dot_S2048x128_S64x128_S2048x64_1_1_0_0_n_n_wf
def dot_S2048x64_S2048x128_S64x128_0_0_1_1_n_n : DotDims S2048x64 S2048x128 S64x128 where
  lhsContracting := [0]
  rhsContracting := [0]
  lhsNonContracting := [1]
  rhsNonContracting := [1]
  lhsBatch := []
  rhsBatch := []
  wf := dot_S2048x64_S2048x128_S64x128_0_0_1_1_n_n_wf
def dot_S2048x64_S2048x1_S64x1_0_0_1_1_n_n : DotDims S2048x64 S2048x1 S64x1 where
  lhsContracting := [0]
  rhsContracting := [0]
  lhsNonContracting := [1]
  rhsNonContracting := [1]
  lhsBatch := []
  rhsBatch := []
  wf := dot_S2048x64_S2048x1_S64x1_0_0_1_1_n_n_wf

abbrev win0_0 : Pipeline.Window sig grid0 :=
  Pipeline.Window.ofSpec (Memref.whole main_arg0) S1x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x64x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S32x8192x128 : Shape := ⟨3, ![32, 8192, 128]⟩
abbrev S64x128 : Shape := ⟨2, ![64, 128]⟩
abbrev S64 : Shape := ⟨1, ![64]⟩
abbrev S_ : Shape := ⟨0, ![]⟩
abbrev S32x8192 : Shape := ⟨2, ![32, 8192]⟩
abbrev S32x8192x1 : Shape := ⟨3, ![32, 8192, 1]⟩
abbrev S32x8192x64 : Shape := ⟨3, ![32, 8192, 64]⟩
abbrev S1x1x64 : Shape := ⟨3, ![1, 1, 64]⟩
abbrev S32x64x128 : Shape := ⟨3, ![32, 64, 128]⟩
abbrev S32x64 : Shape := ⟨2, ![32, 64]⟩
abbrev S1x64x128 : Shape := ⟨3, ![1, 64, 128]⟩
abbrev S32x64x1 : Shape := ⟨3, ![32, 64, 1]⟩
abbrev S32 : Shape := ⟨1, ![32]⟩
abbrev S32x1 : Shape := ⟨2, ![32, 1]⟩

abbrev nBuf : Space → Nat
  | .hbm => 62
  | .vmem => 0
  | .smem => 0
  | _ => 0

abbrev bufTy : (tb : Table) → Fin (tcTables nBuf tb) → BufTy
  | .hbm, ⟨0, _⟩ => ⟨S32x8192x128, .f32⟩
  | .hbm, ⟨1, _⟩ => ⟨S64x128, .f32⟩
  | .hbm, ⟨2, _⟩ => ⟨S64x128, .f32⟩
  | .hbm, ⟨3, _⟩ => ⟨S64, .f32⟩
  | .hbm, ⟨4, _⟩ => ⟨S32x8192x128, .f32⟩
  | .hbm, ⟨5, _⟩ => ⟨S_, .f32⟩
  | .hbm, ⟨6, _⟩ => ⟨S32x8192, .f32⟩
  | .hbm, ⟨7, _⟩ => ⟨S32x8192x1, .f32⟩
  | .hbm, ⟨8, _⟩ => ⟨S32x8192x1, .f32⟩
  | .hbm, ⟨9, _⟩ => ⟨S_, .f32⟩
  | .hbm, ⟨10, _⟩ => ⟨S32x8192x1, .f32⟩
  | .hbm, ⟨11, _⟩ => ⟨S32x8192x1, .f32⟩
  | .hbm, ⟨12, _⟩ => ⟨S32x8192x128, .f32⟩
  | .hbm, ⟨13, _⟩ => ⟨S32x8192x128, .f32⟩
  | .hbm, ⟨14, _⟩ => ⟨S32x8192x64, .f32⟩
  | .hbm, ⟨15, _⟩ => ⟨S1x1x64, .f32⟩
  | .hbm, ⟨16, _⟩ => ⟨S32x8192x64, .f32⟩
  | .hbm, ⟨17, _⟩ => ⟨S32x8192x64, .f32⟩
  | .hbm, ⟨18, _⟩ => ⟨S_, .f32⟩
  | .hbm, ⟨19, _⟩ => ⟨S32x8192, .f32⟩
  | .hbm, ⟨20, _⟩ => ⟨S_, .f32⟩
  | .hbm, ⟨21, _⟩ => ⟨S32x8192, .f32⟩
  | .hbm, ⟨22, _⟩ => ⟨S32x8192, .f32⟩
  | .hbm, ⟨23, _⟩ => ⟨S32x8192x1, .f32⟩
  | .hbm, ⟨24, _⟩ => ⟨S32x8192x64, .f32⟩
  | .hbm, ⟨25, _⟩ => ⟨S32x8192x64, .f32⟩
  | .hbm, ⟨26, _⟩ => ⟨S32x8192x64, .f32⟩
  | .hbm, ⟨27, _⟩ => ⟨S_, .f32⟩
  | .hbm, ⟨28, _⟩ => ⟨S32x8192, .f32⟩
  | .hbm, ⟨29, _⟩ => ⟨S32x8192x1, .f32⟩
  | .hbm, ⟨30, _⟩ => ⟨S32x8192x64, .f32⟩
  | .hbm, ⟨31, _⟩ => ⟨S32x8192x64, .f32⟩
  | .hbm, ⟨32, _⟩ => ⟨S32x64x128, .f32⟩
  | .hbm, ⟨33, _⟩ => ⟨S_, .f32⟩
  | .hbm, ⟨34, _⟩ => ⟨S32x64, .f32⟩
  | .hbm, ⟨35, _⟩ => ⟨S1x64x128, .f32⟩
  | .hbm, ⟨36, _⟩ => ⟨S32x64x1, .f32⟩
  | .hbm, ⟨37, _⟩ => ⟨S32x64x128, .f32⟩
  | .hbm, ⟨38, _⟩ => ⟨S32x64x128, .f32⟩
  | .hbm, ⟨39, _⟩ => ⟨S32x64x128, .f32⟩
  | .hbm, ⟨40, _⟩ => ⟨S32x64x128, .f32⟩
  | .hbm, ⟨41, _⟩ => ⟨S32x64x128, .f32⟩
  | .hbm, ⟨42, _⟩ => ⟨S_, .f32⟩
  | .hbm, ⟨43, _⟩ => ⟨S32x64, .f32⟩
  | .hbm, ⟨44, _⟩ => ⟨S32x64x1, .f32⟩
  | .hbm, ⟨45, _⟩ => ⟨S32x64x1, .f32⟩
  | .hbm, ⟨46, _⟩ => ⟨S_, .f32⟩
  | .hbm, ⟨47, _⟩ => ⟨S32x64x1, .f32⟩
  | .hbm, ⟨48, _⟩ => ⟨S32x64x1, .f32⟩
  | .hbm, ⟨49, _⟩ => ⟨S32x64x128, .f32⟩
  | .hbm, ⟨50, _⟩ => ⟨S32x64x128, .f32⟩
  | .hbm, ⟨51, _⟩ => ⟨S32x8192, .f32⟩
  | .hbm, ⟨52, _⟩ => ⟨S32x8192, .f32⟩
  | .hbm, ⟨53, _⟩ => ⟨S_, .f32⟩
  | .hbm, ⟨54, _⟩ => ⟨S32, .f32⟩
  | .hbm, ⟨55, _⟩ => ⟨S32x1, .f32⟩
  | .hbm, ⟨56, _⟩ => ⟨S32x1, .f32⟩
  | .hbm, ⟨57, _⟩ => ⟨S_, .f32⟩
  | .hbm, ⟨58, _⟩ => ⟨S32x1, .f32⟩
  | .hbm, ⟨59, _⟩ => ⟨S32x1, .f32⟩
  | .hbm, ⟨60, _⟩ => ⟨S32x8192, .f32⟩
  | .hbm, ⟨61, _⟩ => ⟨S32x8192, .f32⟩
  | _, _ => ⟨S32x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_5 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_6 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_7 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_8 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩

abbrev nD : Nat := 1
abbrev τ : Topo := Topo.v7x

variable {F : FTy → Type} [FloatOps F]

class Facts₀ : Prop where
  reducesTo_S32x8192x128_S32x8192_d2 : S32x8192x128.ReducesTo [2] S32x8192
  h_S_ : 0 < S_.numel
  bcast_S32x8192_S32x8192x1_0_1 : S32x8192.BroadcastsInDim S32x8192x1 (![0, 1] : Fin 2 → Fin S32x8192x1.rank)
  bcast_S_S32x8192x1 : S_.BroadcastsInDim S32x8192x1 (![] : Fin 0 → Fin S32x8192x1.rank)
  bcast_S32x8192x1_S32x8192x128_0_1_2 : S32x8192x1.BroadcastsInDim S32x8192x128 (![0, 1, 2] : Fin 3 → Fin S32x8192x128.rank)
  bcast_S64_S1x1x64_2 : S64.BroadcastsInDim S1x1x64 (![2] : Fin 1 → Fin S1x1x64.rank)
  bcast_S1x1x64_S32x8192x64_0_1_2 : S1x1x64.BroadcastsInDim S32x8192x64 (![0, 1, 2] : Fin 3 → Fin S32x8192x64.rank)
  reducesTo_S32x8192x64_S32x8192_d2 : S32x8192x64.ReducesTo [2] S32x8192
  bcast_S_S32x8192 : S_.BroadcastsInDim S32x8192 (![] : Fin 0 → Fin S32x8192.rank)
  bcast_S32x8192x1_S32x8192x64_0_1_2 : S32x8192x1.BroadcastsInDim S32x8192x64 (![0, 1, 2] : Fin 3 → Fin S32x8192x64.rank)
  reducesTo_S32x8192x64_S32x64_d1 : S32x8192x64.ReducesTo [1] S32x64
  bcast_S64x128_S1x64x128_1_2 : S64x128.BroadcastsInDim S1x64x128 (![1, 2] : Fin 2 → Fin S1x64x128.rank)
  bcast_S32x64_S32x64x1_0_1 : S32x64.BroadcastsInDim S32x64x1 (![0, 1] : Fin 2 → Fin S32x64x1.rank)
  bcast_S1x64x128_S32x64x128_0_1_2 : S1x64x128.BroadcastsInDim S32x64x128 (![0, 1, 2] : Fin 3 → Fin S32x64x128.rank)
  bcast_S32x64x1_S32x64x128_0_1_2 : S32x64x1.BroadcastsInDim S32x64x128 (![0, 1, 2] : Fin 3 → Fin S32x64x128.rank)
  reducesTo_S32x64x128_S32x64_d2 : S32x64x128.ReducesTo [2] S32x64
  bcast_S_S32x64x1 : S_.BroadcastsInDim S32x64x1 (![] : Fin 0 → Fin S32x64x1.rank)
  shapeCasts_S32x64x128_S32x8192 : S32x64x128.ShapeCasts S32x8192
  reducesTo_S32x8192_S32_d1 : S32x8192.ReducesTo [1] S32
  bcast_S32_S32x1_0 : S32.BroadcastsInDim S32x1 (![0] : Fin 1 → Fin S32x1.rank)
  bcast_S_S32x1 : S_.BroadcastsInDim S32x1 (![] : Fin 0 → Fin S32x1.rank)
  bcast_S32x1_S32x8192_0_1 : S32x1.BroadcastsInDim S32x8192 (![0, 1] : Fin 2 → Fin S32x8192.rank)
  dot_S32x8192x128_S64x128_S32x8192x64_2_1_01_0_n_n_wf : DotDims.WF S32x8192x128 S64x128 S32x8192x64 [2] [1] [0, 1] [0] [] []
  dot_S32x8192x64_S32x8192x128_S32x64x128_1_1_2_2_0_0_wf : DotDims.WF S32x8192x64 S32x8192x128 S32x64x128 [1] [1] [2] [2] [0] [0]

variable [Facts₀]

def dot_S32x8192x128_S64x128_S32x8192x64_2_1_01_0_n_n : DotDims S32x8192x128 S64x128 S32x8192x64 where
  lhsContracting := [2]
  rhsContracting := [1]
  lhsNonContracting := [0, 1]
  rhsNonContracting := [0]
  lhsBatch := []
  rhsBatch := []
  wf := dot_S32x8192x128_S64x128_S32x8192x64_2_1_01_0_n_n_wf
def dot_S32x8192x64_S32x8192x128_S32x64x128_1_1_2_2_0_0 : DotDims S32x8192x64 S32x8192x128 S32x64x128 where
  lhsContracting := [1]
  rhsContracting := [1]
  lhsNonContracting := [2]
  rhsNonContracting := [2]
  lhsBatch := [0]
  rhsBatch := [0]
  wf := dot_S32x8192x64_S32x8192x128_S32x64x128_1_1_2_2_0_0_wf

class Facts : Prop extends Facts₀ where

variable [Facts]
-- ==== Proof.LibBlockSum.lean ====
/-
  Regrouping a finite sum into consecutive blocks.

  A sum over the `N = m * n` indices `0, …, N - 1` is the sum, over the `m` blocks `j = 0, …, m - 1`, of the sums
  over the `n` consecutive indices `n * j, …, n * j + n - 1` of block `j`.  It holds in every additive commutative
  monoid — in particular over the extended reals, where a sum may be regrouped and reordered freely although
  cancellation and distributivity fail at the infinities.  The block index ranges over `Finset.range m` so that a
  running partial sum over the first `k + 1` blocks is `Finset.sum_range_succ` away from the one over the first `k`;
  the position inside `Fin N` is written modulo `N` so that the summand is a total function of the natural number `j`.
-/
import Mathlib

open scoped BigOperators

namespace Cert.LibBlockSum

/-- The sum over `Fin N`, `N = m * n`, block by block: block `j` holds the indices `n * j + k`, `k < n`. -/
theorem sum_range_blocks {M : Type*} [AddCommMonoid M] (m n N : ℕ) (hN : N = m * n) (hpos : 0 < N) (f : Fin N → M) :
    ∑ j ∈ Finset.range m, ∑ k : Fin n, f ⟨(n * j + k.val) % N, Nat.mod_lt _ hpos⟩ = ∑ i : Fin N, f i := by
  subst hN
  rw [Finset.sum_range, ← Fintype.sum_prod_type']
  refine Fintype.sum_equiv finProdFinEquiv _ _ (fun p => ?_)
  have hlt : p.2.val + n * p.1.val < m * n := by
    have := (finProdFinEquiv p).isLt
    rwa [finProdFinEquiv_apply_val] at this
  refine congrArg f (Fin.ext ?_)
  show (n * p.1.val + p.2.val) % (m * n) = (finProdFinEquiv p).val
  rw [finProdFinEquiv_apply_val, Nat.mod_eq_of_lt (by omega)]
  omega

end Cert.LibBlockSum
-- ==== Proof.Vlad.lean ====
/-
  The quantity both programs compute, on the extended reals.

  A batch holds N descriptor rows of length n.  Each row is scaled to unit Euclidean length (its length floored at a
  small positive word ε); the unit row is scored against K cluster directions (an inner product plus a bias per
  cluster); the scores pass through a softmax (shifted by their maximum) and become the row's assignment weights.
  Per cluster k the weighted unit rows are gathered, Σ_p a(p,k)·u(p,·), and so is the weight mass Σ_p a(p,k); the
  residual is the gathered row minus the cluster's centre scaled by the mass, and the result is that residual row
  scaled to unit length (again with the floored length).

  The gathered sums are sums in an additive commutative monoid, so a batch's sum over all N = t·m rows is the sum over
  t consecutive blocks of m rows of the blocks' sums (`gathered_blocks`, `mass_blocks`): no cancellation, no
  distributivity and no finiteness is used anywhere.
-/
import Idealize.ShloMosaic.PureOps.Ideal
import Idealize.ShloMosaic.Lib.ValueIdx
import proofs.«114280_j35098472742931_1_alg».proof.Proof.LibBlockSum

noncomputable section

open scoped BigOperators

namespace Cert.Vlad

open Idealize.ShloMosaic

/-- The word both programs floor a length at (about 1e-12 in single precision), as the extended real it denotes. -/
abbrev floorWord : EReal := Ideal.ofBits .f32 0x2B8CBCCC#32
/-- The word −∞, the start value of both programs' maximum. -/
abbrev bottom : EReal := Ideal.ofBits .f32 0xFF800000#32

variable {N n K : ℕ}

/-- The Euclidean length of a row, floored at ε. -/
def len (r : Fin n → EReal) : EReal := max (Ideal.sqrt (∑ d, r d * r d)) floorWord

/-- The row scaled by its floored length. -/
def unit (r : Fin n → EReal) (d : Fin n) : EReal := Ideal.div (r d) (len r)

/-- The score of a unit row against cluster k: the inner product with the cluster's direction plus its bias. -/
def score (W : Fin K → Fin n → EReal) (B : Fin K → EReal) (u : Fin n → EReal) (k : Fin K) : EReal :=
  (∑ d, u d * W k d) + B k

/-- The largest score (the maximum started at −∞, taken against −∞ once more, as both programs do). -/
def top (s : Fin K → EReal) : EReal := max bottom ((Finset.univ : Finset (Fin K)).fold max bottom s)

/-- A score shifted by the largest and exponentiated. -/
def lifted (s : Fin K → EReal) (k : Fin K) : EReal := Ideal.exp (s k - top s)

/-- The softmax of the scores. -/
def soft (s : Fin K → EReal) (k : Fin K) : EReal := Ideal.div (lifted s k) (∑ j, lifted s j)

/-- The weight with which a row is assigned to cluster k. -/
def assign (W : Fin K → Fin n → EReal) (B : Fin K → EReal) (r : Fin n → EReal) (k : Fin K) : EReal :=
  soft (score W B (unit r)) k

/-- The unit rows gathered at cluster k with their assignment weights. -/
def gathered (R : Fin N → Fin n → EReal) (W : Fin K → Fin n → EReal) (B : Fin K → EReal) (k : Fin K) (d : Fin n) : EReal :=
  ∑ p : Fin N, assign W B (R p) k * unit (R p) d

/-- The total assignment weight of cluster k. -/
def mass (R : Fin N → Fin n → EReal) (W : Fin K → Fin n → EReal) (B : Fin K → EReal) (k : Fin K) : EReal :=
  ∑ p : Fin N, assign W B (R p) k

/-- The residual of cluster k: the gathered row minus the centre scaled by the mass. -/
def resid (g : Fin K → Fin n → EReal) (C : Fin K → Fin n → EReal) (μ : Fin K → EReal) (k : Fin K) (d : Fin n) : EReal :=
  g k d - C k d * μ k

/-- The residual rows scaled to unit length: the descriptor of one batch. -/
def descriptor (g : Fin K → Fin n → EReal) (C : Fin K → Fin n → EReal) (μ : Fin K → EReal) (k : Fin K) (d : Fin n) : EReal :=
  unit (resid g C μ k) d

/-- The descriptor of a batch of rows. -/
def vlad (R : Fin N → Fin n → EReal) (C W : Fin K → Fin n → EReal) (B : Fin K → EReal) (k : Fin K) (d : Fin n) : EReal :=
  descriptor (gathered R W B) C (mass R W B) k d

/-- Block j (of m rows) of a batch of N rows; the row number is taken modulo N so that the block is defined for
    every natural j. -/
def block (m : ℕ) (hN : 0 < N) (R : Fin N → Fin n → EReal) (j : ℕ) (p : Fin m) : Fin n → EReal :=
  R ⟨(m * j + p.val) % N, Nat.mod_lt _ hN⟩

/-- The gathered rows of a batch are the sum over its blocks of the blocks' gathered rows. -/
theorem gathered_blocks (t m : ℕ) (hN : N = t * m) (hpos : 0 < N) (R : Fin N → Fin n → EReal)
    (W : Fin K → Fin n → EReal) (B : Fin K → EReal) (k : Fin K) (d : Fin n) :
    ∑ j ∈ Finset.range t, gathered (block m hpos R j) W B k d = gathered R W B k d :=
  Cert.LibBlockSum.sum_range_blocks t m N hN hpos fun i => assign W B (R i) k * unit (R i) d

/-- The mass of a batch is the sum over its blocks of the blocks' masses. -/
theorem mass_blocks (t m : ℕ) (hN : N = t * m) (hpos : 0 < N) (R : Fin N → Fin n → EReal)
    (W : Fin K → Fin n → EReal) (B : Fin K → EReal) (k : Fin K) :
    ∑ j ∈ Finset.range t, mass (block m hpos R j) W B k = mass R W B k :=
  Cert.LibBlockSum.sum_range_blocks t m N hN hpos fun i => assign W B (R i) k

/-- The whole result before the last normalisation, as one function of the four argument arrays: entry (b, k, d) is
    the descriptor of batch b (its 8192 rows of length 128) against the 64 centres, directions and biases. -/
def whole (x : (⟨3, ![32, 8192, 128]⟩ : Shape).Idx → EReal) (cen dir : (⟨2, ![64, 128]⟩ : Shape).Idx → EReal)
    (bias : (⟨1, ![64]⟩ : Shape).Idx → EReal) : (⟨3, ![32, 64, 128]⟩ : Shape).Idx → EReal := fun i =>
  vlad (fun (p : Fin 8192) (d : Fin 128) => x (ValueIdx.ix3 (i 0) p d)) (fun (k : Fin 64) (d : Fin 128) => cen (ValueIdx.ix2 k d))
    (fun (k : Fin 64) (d : Fin 128) => dir (ValueIdx.ix2 k d)) (fun (k : Fin 64) => bias (ValueIdx.ix1 k)) (i 1) (i 2)

end Cert.Vlad

end
-- ==== Proof.LibLastAxisReduce.lean ====
/-
  The host's maximum-reduce over the LAST axis of a rank-3 array, read at one entry.

  For an [n0, n1, n2] array reduced over its third axis into an [n0, n1] matrix, the entry at (b, i) is the fold of
  `max`, from the start value, over the entries (b, i, 0), …, (b, i, n2-1).  Stated at the extended reals, for any
  extents and float format: the rank-3 companion of the reduction along the rows of a matrix.
-/
import Idealize.ShloMosaic.PureOps.Ideal.Laws
import Idealize.ShloMosaic.Lib.ValueIdx

noncomputable section
namespace Cert.LibLastAxisReduce
open Idealize.ShloMosaic Idealize.ShloMosaic.ValueIdx

variable {φ : FTy}

/-- Entry (b, i) of the result with the coordinate o put back on the reduced axis is the entry (b, i, o). -/
theorem lift_last {n0 n1 n2 : ℕ} (h : (⟨3, ![n0, n1, n2]⟩ : Shape).Reduces [2] ⟨2, ![n0, n1]⟩)
    (b : Fin n0) (i : Fin n1) (o : Fin n2) : h.lift (ix2 b i) o = ix3 b i o :=
  funext fun a => Fin.ext (by
    match a with
    | ⟨0, _⟩ => rfl
    | ⟨1, _⟩ => rfl
    | ⟨2, _⟩ => rfl)

/-- The host's maximum-reduce over the last axis: the fold of `max` over that axis from the start value. -/
theorem hostReduce_max_last {n0 n1 n2 : ℕ} {u : Shape} (x : FVec Ideal ⟨3, ![n0, n1, n2]⟩ φ) (init : u.Idx → Ideal φ)
    (h' : (⟨3, ![n0, n1, n2]⟩ : Shape).ReducesTo [2] ⟨2, ![n0, n1]⟩)
    (h : (⟨3, ![n0, n1, n2]⟩ : Shape).Reduces [2] ⟨2, ![n0, n1]⟩) (hu : 0 < u.numel) (b : Fin n0) (i : Fin n1) :
    Host.reduce (FloatOps.maximumf (F := Ideal) (φ := φ)) x init h' hu (ix2 b i)
      = (Finset.univ : Finset (Fin n2)).fold max (init (Shape.Idx.first hu)) (fun o => x (ix3 b i o)) :=
  (Host.reduce_eq_fold_single (FloatOps.maximumf (F := Ideal) (φ := φ)) x init h' h hu (ix2 b i)).trans
    (congrArg (Finset.fold max (init (Shape.Idx.first hu)) · Finset.univ) (funext fun o => congrArg x (lift_last h b i o)))

end Cert.LibLastAxisReduce
end
-- ==== Proof.RefStages.lean ====
/-
  The reference, stage by stage, read at coordinates: each intermediate array of the host program holds, at a
  coordinate triple or pair, the quantity of the same name in the specification — the unit rows, the scores, their
  maximum, the softmax weights, the gathered rows, the mass, the residual, and the unit residual rows.  A host sum
  starts from the zero word, which is the real zero and disappears.
-/
import proofs.«114280_j35098472742931_1_alg».proof.Proof.Gen.ReferenceIdeal.Read
import proofs.«114280_j35098472742931_1_alg».proof.Proof.Vlad
import proofs.«114280_j35098472742931_1_alg».proof.Proof.LibLastAxisReduce
import Idealize.ShloMosaic.Lib.ValueIdx
import Idealize.ShloMosaic.PureOps.Ideal.Laws

noncomputable section

open scoped BigOperators

namespace Cert.ReferenceIdeal.RefStages

open Cert.ReferenceIdeal Cert.ReferenceIdeal.Gen Cert.ReferenceIdeal.Read Idealize.ShloMosaic Idealize.ShloMosaic.ValueIdx Cert.Vlad

variable (x0 : S32x8192x128.Idx → EReal) (x1 x2 : S64x128.Idx → EReal) (x3 : S64.Idx → EReal)

/-- The rows of batch b. -/
abbrev rows (b : Fin 32) (p : Fin 8192) (d : Fin 128) : EReal := x0 (ix3 b p d)
/-- A 64 × 128 matrix by its rows. -/
abbrev mat (x : S64x128.Idx → EReal) (k : Fin 64) (d : Fin 128) : EReal := x (ix2 k d)
/-- The bias vector by its entries. -/
abbrev vec (k : Fin 64) : EReal := x3 (ix1 k)

/-- Two index functions of rank 1, 2 or 3 agree when they agree on each axis. -/
macro "idx_rfl1" : tactic => `(tactic| (funext a; match a with | ⟨0, _⟩ => rfl))
macro "idx_rfl2" : tactic => `(tactic| (funext a; match a with | ⟨0, _⟩ => rfl | ⟨1, _⟩ => rfl))
macro "idx_rfl3" : tactic => `(tactic| (funext a; match a with | ⟨0, _⟩ => rfl | ⟨1, _⟩ => rfl | ⟨2, _⟩ => rfl))

/-- The sum of squares of row (b, p). -/
theorem sumsq_at (b : Fin 32) (p : Fin 8192) :
    val_main_v1 (F := Ideal) x0 (ix2 b p) = ∑ d : Fin 128, rows x0 b p d * rows x0 b p d := by
  rw [val_main_v1_apply, val_main_cst_apply]
  simp only [Ideal.ofBits_def, Ideal.ofBits_zero_f32, zero_add, val_main_v0_apply, Ideal.mulf_def]
  have e : ∀ k : Fin 128, idx_main_v1 (ix2 b p) k = ix3 b p k := fun k => by idx_rfl3
  simp only [e]

/-- The floored length of row (b, p). -/
theorem len_at (b : Fin 32) (p : Fin 8192) (u : Fin 1) :
    val_main_v5 (F := Ideal) x0 (ix3 b p u) = len (rows x0 b p) := by
  rw [val_main_v5_apply, val_main_v3_apply, val_main_v2_apply, val_main_v4_apply, val_main_cst_0_apply]
  have e : idx_main_v2 (ix3 b p u) = ix2 b p := by idx_rfl2
  rw [e, sumsq_at]
  simp only [Ideal.maximumf_def, Ideal.hostUnary_sqrt_def, Ideal.ofBits_def]
  rfl

/-- The unit row (b, p). -/
theorem unit_at (b : Fin 32) (p : Fin 8192) (d : Fin 128) :
    val_main_v7 (F := Ideal) x0 (ix3 b p d) = unit (rows x0 b p) d := by
  rw [val_main_v7_apply, val_main_v6_apply]
  have e : idx_main_v6 (ix3 b p d) = ix3 b p (0 : Fin 1) := by idx_rfl3
  rw [e, len_at]
  simp only [Ideal.hostDivf_def]
  rfl

/-- The score of row (b, p) against cluster k. -/
theorem score_at (b : Fin 32) (p : Fin 8192) (k : Fin 64) :
    val_main_v11 (F := Ideal) x0 x2 x3 (ix3 b p k) = score (mat x2) (vec x3) (unit (rows x0 b p)) k := by
  rw [val_main_v11_apply, val_main_v8_apply, val_main_v10_apply, val_main_v9_apply]
  have el : ∀ j : Fin 128, lidx_main_v8 (ix3 b p k) j = ix3 b p j := fun j => by idx_rfl3
  have er : ∀ j : Fin 128, ridx_main_v8 (ix3 b p k) j = ix2 k j := fun j => by idx_rfl2
  have eb : idx_main_v9 (idx_main_v10 (ix3 b p k)) = ix1 k := by idx_rfl1
  simp only [el, er, eb, unit_at, Ideal.addf_def]
  rfl

/-- The largest score of row (b, p). -/
theorem top_at (b : Fin 32) (p : Fin 8192) :
    val_main_v14 (F := Ideal) x0 x2 x3 (ix2 b p) = top (score (mat x2) (vec x3) (unit (rows x0 b p))) := by
  rw [val_main_v14_apply, val_main_v13_apply, val_main_cst_2_apply]
  unfold val_main_v12
  rw [Cert.LibLastAxisReduce.hostReduce_max_last (val_main_v11 (F := Ideal) x0 x2 x3) (val_main_cst_1 (F := Ideal))
    reducesTo_S32x8192x64_S32x8192_d2 (by decide) h_S_ b p]
  rw [val_main_cst_1_apply]
  simp only [score_at, Ideal.maximumf_def, Ideal.ofBits_def]
  rfl

/-- The shifted and exponentiated score. -/
theorem lifted_at (b : Fin 32) (p : Fin 8192) (k : Fin 64) :
    val_main_v18 (F := Ideal) x0 x2 x3 (ix3 b p k) = lifted (score (mat x2) (vec x3) (unit (rows x0 b p))) k := by
  rw [val_main_v18_apply, val_main_v17_apply, val_main_v16_apply, val_main_v15_apply, score_at]
  have e : idx_main_v15 (idx_main_v16 (ix3 b p k)) = ix2 b p := by idx_rfl2
  rw [e, top_at]
  simp only [Ideal.hostUnary_exp_def, Ideal.subf_def]
  rfl

/-- The assignment weight of row (b, p) to cluster k. -/
theorem assign_at (b : Fin 32) (p : Fin 8192) (k : Fin 64) :
    val_main_v22 (F := Ideal) x0 x2 x3 (ix3 b p k) = assign (mat x2) (vec x3) (rows x0 b p) k := by
  rw [val_main_v22_apply, val_main_v21_apply, val_main_v20_apply, val_main_v19_apply, val_main_cst_3_apply, lifted_at]
  have e : ∀ j : Fin 64, idx_main_v19 (idx_main_v20 (idx_main_v21 (ix3 b p k))) j = ix3 b p j := fun j => by idx_rfl3
  simp only [e, lifted_at, Ideal.hostDivf_def, Ideal.ofBits_def, Ideal.ofBits_zero_f32, zero_add]
  rfl

/-- The gathered row of batch b at cluster k. -/
theorem gathered_at (b : Fin 32) (k : Fin 64) (d : Fin 128) :
    val_main_v23 (F := Ideal) x0 x2 x3 (ix3 b k d) = gathered (rows x0 b) (mat x2) (vec x3) k d := by
  rw [val_main_v23_apply]
  have el : ∀ j : Fin 8192, lidx_main_v23 (ix3 b k d) j = ix3 b j k := fun j => by idx_rfl3
  have er : ∀ j : Fin 8192, ridx_main_v23 (ix3 b k d) j = ix3 b j d := fun j => by idx_rfl3
  simp only [el, er, assign_at, unit_at]
  rfl

/-- The mass of batch b at cluster k. -/
theorem mass_at (b : Fin 32) (k : Fin 64) :
    val_main_v24 (F := Ideal) x0 x2 x3 (ix2 b k) = mass (rows x0 b) (mat x2) (vec x3) k := by
  rw [val_main_v24_apply, val_main_cst_4_apply]
  have e : ∀ j : Fin 8192, idx_main_v24 (ix2 b k) j = ix3 b j k := fun j => by idx_rfl3
  simp only [e, assign_at, Ideal.ofBits_def, Ideal.ofBits_zero_f32, zero_add]
  rfl

/-- The residual of batch b at cluster k. -/
theorem resid_at (b : Fin 32) (k : Fin 64) (d : Fin 128) :
    val_main_v30 (F := Ideal) x0 x1 x2 x3 (ix3 b k d)
      = resid (gathered (rows x0 b) (mat x2) (vec x3)) (mat x1) (mass (rows x0 b) (mat x2) (vec x3)) k d := by
  rw [val_main_v30_apply, val_main_v29_apply, val_main_v28_apply, val_main_v27_apply, val_main_v26_apply, val_main_v25_apply,
    gathered_at]
  have ec : idx_main_v25 (idx_main_v27 (ix3 b k d)) = ix2 k d := by idx_rfl2
  have em : idx_main_v26 (idx_main_v28 (ix3 b k d)) = ix2 b k := by idx_rfl2
  rw [ec, em, mass_at]
  simp only [Ideal.subf_def, Ideal.mulf_def]
  rfl

/-- The floored length of the residual row (b, k). -/
theorem rlen_at (b : Fin 32) (k : Fin 64) (u : Fin 1) :
    val_main_v36 (F := Ideal) x0 x1 x2 x3 (ix3 b k u)
      = len (resid (gathered (rows x0 b) (mat x2) (vec x3)) (mat x1) (mass (rows x0 b) (mat x2) (vec x3)) k) := by
  rw [val_main_v36_apply, val_main_v34_apply, val_main_v33_apply, val_main_v32_apply, val_main_v35_apply, val_main_cst_6_apply,
    val_main_cst_5_apply]
  have e : ∀ j : Fin 128, idx_main_v32 (idx_main_v33 (ix3 b k u)) j = ix3 b k j := fun j => by idx_rfl3
  simp only [e, val_main_v31_apply, resid_at, Ideal.maximumf_def, Ideal.hostUnary_sqrt_def, Ideal.ofBits_def,
    Ideal.ofBits_zero_f32, zero_add, Ideal.mulf_def]
  rfl

/-- The host's array before its last normalisation is the specification's whole array. -/
theorem whole_eq : val_main_v38 (F := Ideal) x0 x1 x2 x3 = whole x0 x1 x2 x3 := by
  funext i
  obtain ⟨b, k, d, rfl⟩ : ∃ (b : Fin 32) (k : Fin 64) (d : Fin 128), i = ix3 b k d := ⟨i 0, i 1, i 2, eq_ix3 i⟩
  rw [val_main_v38_apply, val_main_v37_apply, resid_at]
  have e : idx_main_v37 (ix3 b k d) = ix3 b k (0 : Fin 1) := by idx_rfl3
  rw [e, rlen_at]
  simp only [Ideal.hostDivf_def]
  rfl

end Cert.ReferenceIdeal.RefStages

end
-- ==== Proof.Pieces.lean ====
/-
  What one grid point leaves in the two accumulators and in the output block, as the body's arithmetic.

  The body of the kernel keeps two accumulators across the four row blocks of a batch: the gathered rows (64 × 128)
  and the mass column (64 × 1).  At the first block of a batch it stores zeros into both and reads them back; at
  every block it adds the block's contribution to what it reads; at the last block it reads both accumulators once
  more and stores the normalised residual into the output block.  Each accumulator's final store covers it whole, so
  what the point leaves is that store's value, and a load that follows a whole store reads that store's value.
-/
import proofs.«114280_j35098472742931_1_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem Idealize.ShloMosaic.Tactic
open Cert.KernelIdeal Cert.KernelIdeal.Gen

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- At a batch's first block the gathered accumulator ends at the zero block plus the block's contribution. -/
theorem gathered_first (c : Dev nD) (i : grid0.Coords) (a2 : Memref sig .tc .vmem S1x2048x128 .f32) (h2 : a2.IsWhole) (a3 : Memref sig .tc .vmem S64x128 .f32) (h3 : a3.IsWhole) (a4 : Memref sig .tc .vmem S64 .f32) (h4 : a4.IsWhole) (a5 : Memref sig .tc .vmem S64x128 .f32) (h5 : a5.IsWhole) (a6 : Memref sig .tc .vmem S1x64x128 .f32) (h6 : a6.IsWhole) (a7 : Memref sig .tc .vmem S64x128 .f32) (h7 : a7.IsWhole) (a8 : Memref sig .tc .vmem S64x1 .f32) (h8 : a8.IsWhole) (hc0 : cond0_0 i) (hc1 : ¬cond0_1 i)
    (x0 : Vec F S1x2048x128 .f32) (x1 : Vec F S64x128 .f32) (x2 : Vec F S64 .f32) (x3 : Vec F S64x128 .f32) :
    sout0_A_0 c i a2 h2 a3 h3 a4 h4 a5 h5 a6 h6 a7 h7 a8 h8 hc0 hc1 x0 x1 x2 x3 = k0_pay1 (k0_pay9 x0 x1 x2 (k0_pay4 (F := F))) := by
  unfold sout0_A_0
  rw [View.read_writes_eq_canon _ _ _ (scover0_A_0 c i a2 h2 a3 h3 a4 h4 a5 h5 a6 h6 a7 h7 a8 h8 hc0 hc1 x0 x1 x2 x3)]
  unfold kernelRun0_A
  dsimp only
  sl_unfold_words
  rw [View.canon_cons_unit_zero (S := S64x128) hz2, View.readCov_unit_zero (S := S64x128) _ hz2]
  simp only [View.readAt_eq_ld, h2.read_unread, h3.read_unread, h4.read_unread, h5.read_unread, h7.read_unread, h8.read_unread, View.ld_unit_zero (S := S64x128) hz2, View.ld_unit_zero (S := S64x1) hz2, View.ld_unit_zero (S := S1x2048x128) hz3, View.ld_unit_zero (S := S64) hz1]

/-- At a batch's first block the mass accumulator ends at the zero column plus the block's mass. -/
theorem mass_first (c : Dev nD) (i : grid0.Coords) (a2 : Memref sig .tc .vmem S1x2048x128 .f32) (h2 : a2.IsWhole) (a3 : Memref sig .tc .vmem S64x128 .f32) (h3 : a3.IsWhole) (a4 : Memref sig .tc .vmem S64 .f32) (h4 : a4.IsWhole) (a5 : Memref sig .tc .vmem S64x128 .f32) (h5 : a5.IsWhole) (a6 : Memref sig .tc .vmem S1x64x128 .f32) (h6 : a6.IsWhole) (a7 : Memref sig .tc .vmem S64x128 .f32) (h7 : a7.IsWhole) (a8 : Memref sig .tc .vmem S64x1 .f32) (h8 : a8.IsWhole) (hc0 : cond0_0 i) (hc1 : ¬cond0_1 i)
    (x0 : Vec F S1x2048x128 .f32) (x1 : Vec F S64x128 .f32) (x2 : Vec F S64 .f32) (x3 : Vec F S64x128 .f32) :
    sout0_A_1 c i a2 h2 a3 h3 a4 h4 a5 h5 a6 h6 a7 h7 a8 h8 hc0 hc1 x0 x1 x2 x3 = k0_pay2 (k0_pay8 x0 x1 x2) (k0_pay5 (F := F)) := by
  unfold sout0_A_1
  rw [View.read_writes_eq_canon _ _ _ (scover0_A_1 c i a2 h2 a3 h3 a4 h4 a5 h5 a6 h6 a7 h7 a8 h8 hc0 hc1 x0 x1 x2 x3)]
  unfold kernelRun0_A
  dsimp only
  sl_unfold_words
  rw [View.canon_cons_unit_zero (S := S64x1) hz2, View.readCov_unit_zero (S := S64x1) _ hz2]
  simp only [View.readAt_eq_ld, h2.read_unread, h3.read_unread, h4.read_unread, h5.read_unread, h7.read_unread, h8.read_unread, View.ld_unit_zero (S := S64x128) hz2, View.ld_unit_zero (S := S64x1) hz2, View.ld_unit_zero (S := S1x2048x128) hz3, View.ld_unit_zero (S := S64) hz1]

/-- At a middle block the gathered accumulator ends at what it held plus the block's contribution. -/
theorem gathered_middle (c : Dev nD) (i : grid0.Coords) (a2 : Memref sig .tc .vmem S1x2048x128 .f32) (h2 : a2.IsWhole) (a3 : Memref sig .tc .vmem S64x128 .f32) (h3 : a3.IsWhole) (a4 : Memref sig .tc .vmem S64 .f32) (h4 : a4.IsWhole) (a5 : Memref sig .tc .vmem S64x128 .f32) (h5 : a5.IsWhole) (a6 : Memref sig .tc .vmem S1x64x128 .f32) (h6 : a6.IsWhole) (a7 : Memref sig .tc .vmem S64x128 .f32) (h7 : a7.IsWhole) (a8 : Memref sig .tc .vmem S64x1 .f32) (h8 : a8.IsWhole) (hc0 : ¬cond0_0 i) (hc1 : ¬cond0_1 i)
    (x0 : Vec F S1x2048x128 .f32) (x1 : Vec F S64x128 .f32) (x2 : Vec F S64 .f32) (x3 : Vec F S64x128 .f32) (xs0 : Vec F S64x128 .f32) (xs1 : Vec F S64x1 .f32) :
    sout0_B_0 c i a2 h2 a3 h3 a4 h4 a5 h5 a6 h6 a7 h7 a8 h8 hc0 hc1 x0 x1 x2 x3 xs0 xs1 = k0_pay1 (k0_pay9 x0 x1 x2 xs0) := by
  unfold sout0_B_0
  rw [View.read_writes_eq_canon _ _ _ (scover0_B_0 c i a2 h2 a3 h3 a4 h4 a5 h5 a6 h6 a7 h7 a8 h8 hc0 hc1 x0 x1 x2 x3 xs0 xs1)]
  unfold kernelRun0_B
  dsimp only
  sl_unfold_words
  rw [View.canon_unit_zero hz2]
  simp only [View.readAt_eq_ld, h2.read_unread, h3.read_unread, h4.read_unread, h5.read_unread, h7.read_unread, h8.read_unread, View.ld_unit_zero (S := S64x128) hz2, View.ld_unit_zero (S := S64x1) hz2, View.ld_unit_zero (S := S1x2048x128) hz3, View.ld_unit_zero (S := S64) hz1]

/-- At a middle block the mass accumulator ends at what it held plus the block's mass. -/
theorem mass_middle (c : Dev nD) (i : grid0.Coords) (a2 : Memref sig .tc .vmem S1x2048x128 .f32) (h2 : a2.IsWhole) (a3 : Memref sig .tc .vmem S64x128 .f32) (h3 : a3.IsWhole) (a4 : Memref sig .tc .vmem S64 .f32) (h4 : a4.IsWhole) (a5 : Memref sig .tc .vmem S64x128 .f32) (h5 : a5.IsWhole) (a6 : Memref sig .tc .vmem S1x64x128 .f32) (h6 : a6.IsWhole) (a7 : Memref sig .tc .vmem S64x128 .f32) (h7 : a7.IsWhole) (a8 : Memref sig .tc .vmem S64x1 .f32) (h8 : a8.IsWhole) (hc0 : ¬cond0_0 i) (hc1 : ¬cond0_1 i)
    (x0 : Vec F S1x2048x128 .f32) (x1 : Vec F S64x128 .f32) (x2 : Vec F S64 .f32) (x3 : Vec F S64x128 .f32) (xs0 : Vec F S64x128 .f32) (xs1 : Vec F S64x1 .f32) :
    sout0_B_1 c i a2 h2 a3 h3 a4 h4 a5 h5 a6 h6 a7 h7 a8 h8 hc0 hc1 x0 x1 x2 x3 xs0 xs1 = k0_pay2 (k0_pay8 x0 x1 x2) xs1 := by
  unfold sout0_B_1
  rw [View.read_writes_eq_canon _ _ _ (scover0_B_1 c i a2 h2 a3 h3 a4 h4 a5 h5 a6 h6 a7 h7 a8 h8 hc0 hc1 x0 x1 x2 x3 xs0 xs1)]
  unfold kernelRun0_B
  dsimp only
  sl_unfold_words
  rw [View.canon_unit_zero hz2]
  simp only [View.readAt_eq_ld, h2.read_unread, h3.read_unread, h4.read_unread, h5.read_unread, h7.read_unread, h8.read_unread, View.ld_unit_zero (S := S64x128) hz2, View.ld_unit_zero (S := S64x1) hz2, View.ld_unit_zero (S := S1x2048x128) hz3, View.ld_unit_zero (S := S64) hz1]

/-- At a batch's last block the gathered accumulator ends at what it held plus the block's contribution. -/
theorem gathered_last (c : Dev nD) (i : grid0.Coords) (a2 : Memref sig .tc .vmem S1x2048x128 .f32) (h2 : a2.IsWhole) (a3 : Memref sig .tc .vmem S64x128 .f32) (h3 : a3.IsWhole) (a4 : Memref sig .tc .vmem S64 .f32) (h4 : a4.IsWhole) (a5 : Memref sig .tc .vmem S64x128 .f32) (h5 : a5.IsWhole) (a6 : Memref sig .tc .vmem S1x64x128 .f32) (h6 : a6.IsWhole) (a7 : Memref sig .tc .vmem S64x128 .f32) (h7 : a7.IsWhole) (a8 : Memref sig .tc .vmem S64x1 .f32) (h8 : a8.IsWhole) (hc0 : ¬cond0_0 i) (hc1 : cond0_1 i)
    (x0 : Vec F S1x2048x128 .f32) (x1 : Vec F S64x128 .f32) (x2 : Vec F S64 .f32) (x3 : Vec F S64x128 .f32) (xs0 : Vec F S64x128 .f32) (xs1 : Vec F S64x1 .f32) :
    sout0_C_0 c i a2 h2 a3 h3 a4 h4 a5 h5 a6 h6 a7 h7 a8 h8 hc0 hc1 x0 x1 x2 x3 xs0 xs1 = k0_pay1 (k0_pay9 x0 x1 x2 xs0) := by
  unfold sout0_C_0
  rw [View.read_writes_eq_canon _ _ _ (scover0_C_0 c i a2 h2 a3 h3 a4 h4 a5 h5 a6 h6 a7 h7 a8 h8 hc0 hc1 x0 x1 x2 x3 xs0 xs1)]
  unfold kernelRun0_C
  dsimp only
  sl_unfold_words
  rw [View.canon_unit_zero hz2]
  simp only [View.readAt_eq_ld, h2.read_unread, h3.read_unread, h4.read_unread, h5.read_unread, h7.read_unread, h8.read_unread, View.ld_unit_zero (S := S64x128) hz2, View.ld_unit_zero (S := S64x1) hz2, View.ld_unit_zero (S := S1x2048x128) hz3, View.ld_unit_zero (S := S64) hz1]

/-- At a batch's last block the mass accumulator ends at what it held plus the block's mass. -/
theorem mass_last (c : Dev nD) (i : grid0.Coords) (a2 : Memref sig .tc .vmem S1x2048x128 .f32) (h2 : a2.IsWhole) (a3 : Memref sig .tc .vmem S64x128 .f32) (h3 : a3.IsWhole) (a4 : Memref sig .tc .vmem S64 .f32) (h4 : a4.IsWhole) (a5 : Memref sig .tc .vmem S64x128 .f32) (h5 : a5.IsWhole) (a6 : Memref sig .tc .vmem S1x64x128 .f32) (h6 : a6.IsWhole) (a7 : Memref sig .tc .vmem S64x128 .f32) (h7 : a7.IsWhole) (a8 : Memref sig .tc .vmem S64x1 .f32) (h8 : a8.IsWhole) (hc0 : ¬cond0_0 i) (hc1 : cond0_1 i)
    (x0 : Vec F S1x2048x128 .f32) (x1 : Vec F S64x128 .f32) (x2 : Vec F S64 .f32) (x3 : Vec F S64x128 .f32) (xs0 : Vec F S64x128 .f32) (xs1 : Vec F S64x1 .f32) :
    sout0_C_1 c i a2 h2 a3 h3 a4 h4 a5 h5 a6 h6 a7 h7 a8 h8 hc0 hc1 x0 x1 x2 x3 xs0 xs1 = k0_pay2 (k0_pay8 x0 x1 x2) xs1 := by
  unfold sout0_C_1
  rw [View.read_writes_eq_canon _ _ _ (scover0_C_1 c i a2 h2 a3 h3 a4 h4 a5 h5 a6 h6 a7 h7 a8 h8 hc0 hc1 x0 x1 x2 x3 xs0 xs1)]
  unfold kernelRun0_C
  dsimp only
  sl_unfold_words
  rw [View.canon_unit_zero hz2]
  simp only [View.readAt_eq_ld, h2.read_unread, h3.read_unread, h4.read_unread, h5.read_unread, h7.read_unread, h8.read_unread, View.ld_unit_zero (S := S64x128) hz2, View.ld_unit_zero (S := S64x1) hz2, View.ld_unit_zero (S := S1x2048x128) hz3, View.ld_unit_zero (S := S64) hz1]

/-- At a batch's last block the output block ends at the normalised residual of the two accumulators' final values and the centres. -/
theorem result_last (c : Dev nD) (i : grid0.Coords) (a2 : Memref sig .tc .vmem S1x2048x128 .f32) (h2 : a2.IsWhole) (a3 : Memref sig .tc .vmem S64x128 .f32) (h3 : a3.IsWhole) (a4 : Memref sig .tc .vmem S64 .f32) (h4 : a4.IsWhole) (a5 : Memref sig .tc .vmem S64x128 .f32) (h5 : a5.IsWhole) (a6 : Memref sig .tc .vmem S1x64x128 .f32) (h6 : a6.IsWhole) (a7 : Memref sig .tc .vmem S64x128 .f32) (h7 : a7.IsWhole) (a8 : Memref sig .tc .vmem S64x1 .f32) (h8 : a8.IsWhole) (hc0 : ¬cond0_0 i) (hc1 : cond0_1 i)
    (x0 : Vec F S1x2048x128 .f32) (x1 : Vec F S64x128 .f32) (x2 : Vec F S64 .f32) (x3 : Vec F S64x128 .f32) (xs0 : Vec F S64x128 .f32) (xs1 : Vec F S64x1 .f32) :
    out0_C_4 c i a2 h2 a3 h3 a4 h4 a5 h5 a6 h6 a7 h7 a8 h8 hc0 hc1 x0 x1 x2 x3 xs0 xs1 = k0_pay3 (k0_pay1 (k0_pay9 x0 x1 x2 xs0)) x3 (k0_pay2 (k0_pay8 x0 x1 x2) xs1) := by
  unfold out0_C_4
  rw [View.read_writes_eq_canon _ _ _ (cover0_C_4 c i a2 h2 a3 h3 a4 h4 a5 h5 a6 h6 a7 h7 a8 h8 hc0 hc1 x0 x1 x2 x3 xs0 xs1)]
  unfold kernelRun0_C
  dsimp only
  sl_unfold_words
  rw [View.canon_unit_zero hz3]
  simp only [View.readAt_eq_ld, h2.read_unread, h3.read_unread, h4.read_unread, h5.read_unread, h7.read_unread, h8.read_unread, View.ld_unit_zero (S := S64x128) hz2, View.ld_unit_zero (S := S64x1) hz2, View.ld_unit_zero (S := S1x2048x128) hz3, View.ld_unit_zero (S := S64) hz1]
  rw [View.readCov_unit_zero (S := S64x128) _ hz2, View.readCov_unit_zero (S := S64x1) _ hz2]

end Cert.KernelIdeal.Pieces

end
-- ==== Proof.LibKeepdims.lean ====
/-
  Two layout operations of a "keep the reduced axis" column, read at an index: a vector [a] cast to a column [a, 1],
  and a column [a, 1] broadcast along a second axis to [a, b]. General in the extents and in the element type.
-/
import Idealize.ShloMosaic.Lib.Pipeline.Value
import Idealize.ShloMosaic.Lib.ValueIdx

noncomputable section

namespace Cert.LibKeepdims

open Idealize.ShloMosaic Idealize.ShloMosaic.ValueIdx

variable {α : Type}

/-- An `[a]` array cast to the column `[a, 1]` reads, at `(i, 0)`, the operand at `i`: both sit at row-major
    position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : Fin 1).val = if (1 : ℕ) = 1 then 0 else c.val
    rw [if_pos rfl]; rfl

end Cert.LibKeepdims

end
-- ==== Proof.LibRowReduce.lean ====
/-
  Reductions along the rows of a matrix, read at one row.

  For an [n, d] matrix reduced over its second axis into an [n] vector, the entry at row p is the reduction of the
  entries (p, 0), …, (p, d-1): a sum for an add-reduction, the fold of `max` from the start value for a
  maximum-reduction.  Stated for the kernel's vector reductions and for the host's one-operand reduce, at the
  extended reals, for any extents and float format.
-/
import Idealize.ShloMosaic.PureOps.Ideal.Laws
import Idealize.ShloMosaic.Lib.ValueIdx

noncomputable section
namespace Cert.LibRowReduce
open Idealize.ShloMosaic Idealize.ShloMosaic.ValueIdx

variable {φ : FTy}

/-- Row p with the coordinate o put back on the reduced axis is the entry (p, o). -/
theorem lift_row {n d : ℕ} (h : (⟨2, ![n, d]⟩ : Shape).Reduces [1] ⟨1, ![n]⟩) (p : Fin n) (o : Fin d) :
    h.lift (ix1 p) o = ix2 p o :=
  funext fun a => Fin.ext (by
    match a with
    | ⟨0, _⟩ => rfl
    | ⟨1, _⟩ => rfl)

/-- A vector add-reduction along the rows: the row's sum. -/
theorem multiReduction_add_row {n d : ℕ} (src : FVec Ideal ⟨2, ![n, d]⟩ φ) (acc : BitVec φ.bits)
    (h : (⟨2, ![n, d]⟩ : Shape).Reduces [1] ⟨1, ![n]⟩) (hφ : FKind.Formats φ) (hacc : acc = FKind.add.neutral φ hφ) (p : Fin n) :
    multiReduction .add [1] ⟨1, ![n]⟩ src acc h hφ hacc (ix1 p) = ∑ o : Fin d, src (ix2 p o) :=
  (Ideal.multiReduction_add_single src acc h hφ hacc (ix1 p)).trans
    (Finset.sum_congr rfl fun o _ => congrArg src (lift_row h p o))

/-- A vector maximum-reduction along the rows: the fold of `max` over the row from the accumulator's value. -/
theorem multiReduction_max_row {n d : ℕ} (src : FVec Ideal ⟨2, ![n, d]⟩ φ) (acc : BitVec φ.bits)
    (h : (⟨2, ![n, d]⟩ : Shape).Reduces [1] ⟨1, ![n]⟩) (hφ : FKind.Formats φ) (hacc : acc = FKind.maximumf.neutral φ hφ) (p : Fin n) :
    multiReduction .maximumf [1] ⟨1, ![n]⟩ src acc h hφ hacc (ix1 p)
      = (Finset.univ : Finset (Fin d)).fold max (Ideal.ofBits φ acc) (fun o => src (ix2 p o)) :=
  (Ideal.multiReduction_maximumf_single src acc h hφ hacc (ix1 p)).trans
    (congrArg (Finset.fold max (Ideal.ofBits φ acc) · Finset.univ) (funext fun o => congrArg src (lift_row h p o)))

/-- The host's add-reduce along the rows: the start value plus the row's sum. -/
theorem hostReduceAdd_row {n d : ℕ} {u : Shape} (x : FVec Ideal ⟨2, ![n, d]⟩ φ) (init : u.Idx → Ideal φ)
    (h' : (⟨2, ![n, d]⟩ : Shape).ReducesTo [1] ⟨1, ![n]⟩) (h : (⟨2, ![n, d]⟩ : Shape).Reduces [1] ⟨1, ![n]⟩) (hu : 0 < u.numel) (p : Fin n) :
    Host.reduceAdd x init h' hu (ix1 p) = init (Shape.Idx.first hu) + ∑ o : Fin d, x (ix2 p o) :=
  (Ideal.hostReduceAdd_single h' h x (init (Shape.Idx.first hu)) (ix1 p)).trans
    (congrArg (init (Shape.Idx.first hu) + ·) (Finset.sum_congr rfl fun o _ => congrArg x (lift_row h p o)))

/-- The host's maximum-reduce along the rows: the fold of `max` over the row from the start value. -/
theorem hostReduce_max_row {n d : ℕ} {u : Shape} (x : FVec Ideal ⟨2, ![n, d]⟩ φ) (init : u.Idx → Ideal φ)
    (h' : (⟨2, ![n, d]⟩ : Shape).ReducesTo [1] ⟨1, ![n]⟩) (h : (⟨2, ![n, d]⟩ : Shape).Reduces [1] ⟨1, ![n]⟩) (hu : 0 < u.numel) (p : Fin n) :
    Host.reduce (FloatOps.maximumf (F := Ideal) (φ := φ)) x init h' hu (ix1 p)
      = (Finset.univ : Finset (Fin d)).fold max (init (Shape.Idx.first hu)) (fun o => x (ix2 p o)) :=
  (Host.reduce_eq_fold_single (FloatOps.maximumf (F := Ideal) (φ := φ)) x init h' h hu (ix1 p)).trans
    (congrArg (Finset.fold max (init (Shape.Idx.first hu)) · Finset.univ) (funext fun o => congrArg x (lift_row h p o)))

end Cert.LibRowReduce
end
-- ==== Proof.LibRowRowDot.lean ====
/-
  A contraction of two matrices along their rows' common axis: `[n, k] × [m, k] → [n, m]`, entry `(p, o)` the inner
  product of row `p` of the left operand with row `o` of the right (a product with the right operand's transpose that
  never forms the transpose). Read at an index on the extended reals: for any contraction record with those
  dimension numbers, and for a matrix unit's product into the zero accumulator.
-/
import Idealize.ShloMosaic.PureOps.Ideal.Laws
import Idealize.ShloMosaic.Lib.ValueIdx

noncomputable section

open scoped BigOperators

namespace Cert.LibRowRowDot

open Idealize.ShloMosaic Idealize.ShloMosaic.ValueIdx

/-- The sum over the contraction index is the sum over the one contracted coordinate j, the left operand read at
    (p, j) and the right at (o, j). -/
theorem sum_contr_rows {n k m : ℕ} (D : DotDims ⟨2, ![n, k]⟩ ⟨2, ![m, k]⟩ ⟨2, ![n, m]⟩)
    (hlc : D.lhsContracting = [1]) (hrc : D.rhsContracting = [1]) (hln : D.lhsNonContracting = [0]) (hrn : D.rhsNonContracting = [0])
    (hlb : D.lhsBatch = []) (hrb : D.rhsBatch = [])
    (lhs : (⟨2, ![n, k]⟩ : Shape).Idx → EReal) (rhs : (⟨2, ![m, k]⟩ : Shape).Idx → EReal) (p : Fin n) (o : Fin m) :
    ∑ q : D.contr.Idx, lhs (D.lhsIdx (ix2 p o) q) * rhs (D.rhsIdx (ix2 p o) q) = ∑ j : Fin k, lhs (ix2 p j) * rhs (ix2 o j) := by
  obtain ⟨lc, rc, ln, rn, lb, rb, wf⟩ := D
  simp only at hlc hrc hln hrn hlb hrb
  subst hlc hrc hln hrn hlb hrb
  rw [← Equiv.sum_comp (contrEquiv1 (DotDims.mk [1] [1] [0] [0] [] [] wf) k rfl rfl).symm]
  refine Finset.sum_congr rfl fun j _ => ?_
  have hk := contrEquiv1_symm_val (DotDims.mk [1] [1] [0] [0] [] [] wf) k rfl rfl j
  have el : (DotDims.mk [1] [1] [0] [0] [] [] wf).lhsIdx (ix2 p o) ((contrEquiv1 (DotDims.mk [1] [1] [0] [0] [] [] wf) k rfl rfl).symm j) = ix2 p j :=
    funext fun a => Fin.ext (by
      match a with
      | ⟨0, _⟩ => rfl
      | ⟨1, _⟩ => exact ((DotDims.mk [1] [1] [0] [0] [] [] wf).lhsIdx_val_of_single rfl _ _).trans hk)
  have er : (DotDims.mk [1] [1] [0] [0] [] [] wf).rhsIdx (ix2 p o) ((contrEquiv1 (DotDims.mk [1] [1] [0] [0] [] [] wf) k rfl rfl).symm j) = ix2 o j :=
    funext fun a => Fin.ext (by
      match a with
      | ⟨0, _⟩ => rfl
      | ⟨1, _⟩ => exact ((DotDims.mk [1] [1] [0] [0] [] [] wf).rhsIdx_val_of_single rfl _ _).trans hk)
  rw [el, er]

/-- A matrix unit's product of rows against rows into the zero accumulator, at (p, o). -/
theorem matmul_zero_rows_apply {n k m : ℕ} {φ₁ φ₂ : FTy} (D : DotDims ⟨2, ![n, k]⟩ ⟨2, ![m, k]⟩ ⟨2, ![n, m]⟩)
    (hlc : D.lhsContracting = [1]) (hrc : D.rhsContracting = [1]) (hln : D.lhsNonContracting = [0]) (hrn : D.rhsNonContracting = [0])
    (hlb : D.lhsBatch = []) (hrb : D.rhsBatch = []) (prec : Option ContractPrecision)
    (lhs : FVec Ideal ⟨2, ![n, k]⟩ φ₁) (rhs : FVec Ideal ⟨2, ![m, k]⟩ φ₂) (p : Fin n) (o : Fin m) :
    FloatOps.matmul D prec lhs rhs (constant ⟨2, ![n, m]⟩ .f32 0x00000000#32) (ix2 p o) = ∑ j : Fin k, lhs (ix2 p j) * rhs (ix2 o j) :=
  (Ideal.matmul_constant_zero_apply D prec lhs rhs (ix2 p o)).trans (sum_contr_rows D hlc hrc hln hrn hlb hrb lhs rhs p o)

end Cert.LibRowRowDot

end
-- ==== Proof.LibBiasRow.lean ====
/-
  A bias vector laid along the rows of a matrix, read at an entry.

  A vector [D] reshaped to the one-row matrix [1, D] has the vector's element k at (0, k); that row spread over N rows has,
  at (p, k), the row's element (0, k).  Together: adding a bias vector to every row of an [N, D] matrix adds element k of the
  vector at column k.  General in the extents and the element type.
-/
import Idealize.ShloMosaic.Lib.ValueIdx
import Idealize.ShloMosaic.Lib.Pipeline.Value

noncomputable section

namespace Cert.LibBiasRow

open Idealize.ShloMosaic Idealize.ShloMosaic.ValueIdx

/-- A vector reshaped to a one-row matrix: element (u, k) of the row is element k of the vector. -/
theorem vec_as_row_apply {α : Type} {D : ℕ} (h : (⟨1, ![D]⟩ : Shape).ShapeCasts ⟨2, ![1, D]⟩)
    (v : (⟨1, ![D]⟩ : Shape).Idx → α) (u : Fin 1) (k : Fin D) :
    shapeCast ⟨2, ![1, D]⟩ v h (ix2 u k) = v (ix1 k) := by
  refine (shapeCast_addUnit_apply (n := 1) ![D] v h (ix2 u k)).trans (congrArg v ?_)
  funext a
  match a with
  | ⟨0, _⟩ => rfl

/-- A one-row matrix spread over N rows: element (p, k) is the row's element (0, k) (the first axis is a unit axis; the
    second is read at the column, also when D = 1). -/
theorem row_spread_apply {α : Type} {N D : ℕ} (h : (⟨2, ![1, D]⟩ : Shape).Broadcasts ⟨2, ![N, D]⟩)
    (v : (⟨2, ![1, D]⟩ : Shape).Idx → α) (p : Fin N) (k : Fin D) :
    broadcastTo ⟨2, ![N, D]⟩ v h (ix2 p k) = v (ix2 (0 : Fin 1) k) :=
  broadcastTo_apply v h (ix2 p k) (ix2 (0 : Fin 1) k) (fun a => by
    match a with
    | ⟨0, _⟩ => rfl
    | ⟨1, _⟩ =>
      show k.val = if D = 1 then 0 else k.val
      split
      · have := k.isLt; omega
      · rfl)

/-- The two together: a vector reshaped to a row and spread over N rows reads, at (p, k), the vector's element k. -/
theorem vec_spread_apply {α : Type} {N D : ℕ} (h₁ : (⟨1, ![D]⟩ : Shape).ShapeCasts ⟨2, ![1, D]⟩)
    (h₂ : (⟨2, ![1, D]⟩ : Shape).Broadcasts ⟨2, ![N, D]⟩) (v : (⟨1, ![D]⟩ : Shape).Idx → α) (p : Fin N) (k : Fin D) :
    broadcastTo ⟨2, ![N, D]⟩ (shapeCast ⟨2, ![1, D]⟩ v h₁) h₂ (ix2 p k) = v (ix1 k) :=
  (row_spread_apply h₂ _ p k).trans (vec_as_row_apply h₁ v 0 k)

end Cert.LibBiasRow

end
-- ==== Proof.LibColColDot.lean ====
/-
  A contraction of two matrices down their common leading axis: `[k, n] × [k, m] → [n, m]`, entry `(p, o)` the inner
  product of column `p` of the left operand with column `o` of the right (a product with the left operand's
  transpose that never forms the transpose).  Read at an index on the extended reals: for any contraction record with
  those dimension numbers, and for a matrix unit's product into the zero accumulator, for operands of any float
  formats.
-/
import Idealize.ShloMosaic.PureOps.Ideal.Laws
import Idealize.ShloMosaic.Lib.ValueIdx

noncomputable section

open scoped BigOperators

namespace Cert.LibColColDot

open Idealize.ShloMosaic Idealize.ShloMosaic.ValueIdx

/-- The sum over the contraction index is the sum over the one contracted coordinate j, the left operand read at
    (j, p) and the right at (j, o). -/
theorem sum_contr_cols {k n m : ℕ} (D : DotDims ⟨2, ![k, n]⟩ ⟨2, ![k, m]⟩ ⟨2, ![n, m]⟩)
    (hlc : D.lhsContracting = [0]) (hrc : D.rhsContracting = [0]) (hln : D.lhsNonContracting = [1]) (hrn : D.rhsNonContracting = [1])
    (hlb : D.lhsBatch = []) (hrb : D.rhsBatch = [])
    (lhs : (⟨2, ![k, n]⟩ : Shape).Idx → EReal) (rhs : (⟨2, ![k, m]⟩ : Shape).Idx → EReal) (p : Fin n) (o : Fin m) :
    ∑ q : D.contr.Idx, lhs (D.lhsIdx (ix2 p o) q) * rhs (D.rhsIdx (ix2 p o) q) = ∑ j : Fin k, lhs (ix2 j p) * rhs (ix2 j o) := by
  obtain ⟨lc, rc, ln, rn, lb, rb, wf⟩ := D
  simp only at hlc hrc hln hrn hlb hrb
  subst hlc hrc hln hrn hlb hrb
  rw [← Equiv.sum_comp (contrEquiv1 (DotDims.mk [0] [0] [1] [1] [] [] wf) k rfl rfl).symm]
  refine Finset.sum_congr rfl fun j _ => ?_
  have hk := contrEquiv1_symm_val (DotDims.mk [0] [0] [1] [1] [] [] wf) k rfl rfl j
  have el : (DotDims.mk [0] [0] [1] [1] [] [] wf).lhsIdx (ix2 p o) ((contrEquiv1 (DotDims.mk [0] [0] [1] [1] [] [] wf) k rfl rfl).symm j) = ix2 j p :=
    funext fun a => Fin.ext (by
      match a with
      | ⟨0, _⟩ => exact ((DotDims.mk [0] [0] [1] [1] [] [] wf).lhsIdx_val_of_single rfl _ _).trans hk
      | ⟨1, _⟩ => rfl)
  have er : (DotDims.mk [0] [0] [1] [1] [] [] wf).rhsIdx (ix2 p o) ((contrEquiv1 (DotDims.mk [0] [0] [1] [1] [] [] wf) k rfl rfl).symm j) = ix2 j o :=
    funext fun a => Fin.ext (by
      match a with
      | ⟨0, _⟩ => exact ((DotDims.mk [0] [0] [1] [1] [] [] wf).rhsIdx_val_of_single rfl _ _).trans hk
      | ⟨1, _⟩ => rfl)
  rw [el, er]

/-- A matrix unit's product of columns against columns into the zero accumulator, at (p, o). -/
theorem matmul_zero_cols_apply {k n m : ℕ} {φ₁ φ₂ : FTy} (D : DotDims ⟨2, ![k, n]⟩ ⟨2, ![k, m]⟩ ⟨2, ![n, m]⟩)
    (hlc : D.lhsContracting = [0]) (hrc : D.rhsContracting = [0]) (hln : D.lhsNonContracting = [1]) (hrn : D.rhsNonContracting = [1])
    (hlb : D.lhsBatch = []) (hrb : D.rhsBatch = []) (prec : Option ContractPrecision)
    (lhs : FVec Ideal ⟨2, ![k, n]⟩ φ₁) (rhs : FVec Ideal ⟨2, ![k, m]⟩ φ₂) (p : Fin n) (o : Fin m) :
    FloatOps.matmul D prec lhs rhs (constant ⟨2, ![n, m]⟩ .f32 0x00000000#32) (ix2 p o) = ∑ j : Fin k, lhs (ix2 j p) * rhs (ix2 j o) :=
  (Ideal.matmul_constant_zero_apply D prec lhs rhs (ix2 p o)).trans (sum_contr_cols D hlc hrc hln hrn hlb hrb lhs rhs p o)

end Cert.LibColColDot

end
-- ==== Proof.BlockValues.lean ====
/-
  The body's arithmetic on one block of 2048 rows, read at coordinates.

  Row p of the block is scaled to unit length; the unit rows are scored against the 64 directions and pass through the
  softmax; the block's contribution to the gathered rows is Σ_p a(p,k)·u(p,d) and to the mass Σ_p a(p,k)·1.  Both
  contractions run down the rows of both operands (the weights are used transposed without forming the transpose).
-/
import proofs.«114280_j35098472742931_1_alg».proof.Proof.Gen.KernelIdeal.Skeleton
import proofs.«114280_j35098472742931_1_alg».proof.Proof.Vlad
import proofs.«114280_j35098472742931_1_alg».proof.Proof.LibKeepdims
import proofs.«114280_j35098472742931_1_alg».proof.Proof.LibRowReduce
import proofs.«114280_j35098472742931_1_alg».proof.Proof.LibRowRowDot
import proofs.«114280_j35098472742931_1_alg».proof.Proof.LibBiasRow
import proofs.«114280_j35098472742931_1_alg».proof.Proof.LibColColDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.BlockValues

open Cert.KernelIdeal Cert.KernelIdeal.Gen Idealize.ShloMosaic Idealize.ShloMosaic.ValueIdx Cert.Vlad

/-- The rows of a block of 2048 rows held with a leading unit axis. -/
abbrev brows (x0 : S1x2048x128.Idx → EReal) (p : Fin 2048) (d : Fin 128) : EReal := x0 (ix3 (0 : Fin 1) p d)
/-- A 64 × 128 matrix by its rows. -/
abbrev mat (x : S64x128.Idx → EReal) (k : Fin 64) (d : Fin 128) : EReal := x (ix2 k d)
/-- The bias vector by its entries. -/
abbrev vec (x2 : S64.Idx → EReal) (k : Fin 64) : EReal := x2 (ix1 k)

/-- The bf16 word of the ones column is the number one. -/
theorem one_word : Ideal.ofBits .bf16 0x3F80#16 = 1 := by
  simp [Ideal.ofBits, Ideal.ieee]
  norm_cast
  norm_num

/-! ## Row operations over any matrix -/

section Rows
variable {n d : ℕ}

/-- The floored length of each row, computed as the vector unit does: the squares summed along the row, the square
    root, the floor at ε — kept as a column. -/
theorem keepdims_len (v : FVec Ideal ⟨2, ![n, d]⟩ .f32) (hr : (⟨2, ![n, d]⟩ : Shape).Reduces [1] ⟨1, ![n]⟩)
    (hφ : FKind.Formats .f32) (hacc : (0x00000000#32 : BitVec 32) = FKind.add.neutral .f32 hφ)
    (hc : (⟨1, ![n]⟩ : Shape).ShapeCasts ⟨2, ![n, 1]⟩) (p : Fin n) (u : Fin 1) :
    (maximumf (sqrt (shapeCast ⟨2, ![n, 1]⟩ (multiReduction .add [1] ⟨1, ![n]⟩ (mulf v v) 0x00000000#32 hr hφ hacc) hc))
      (broadcast ⟨2, ![n, 1]⟩ (FloatOps.ofBits (F := Ideal) .f32 0x2B8CBCCC#32)) : FVec Ideal ⟨2, ![n, 1]⟩ .f32) (ix2 p u)
      = len (fun e => v (ix2 p e)) := by
  show max (Ideal.sqrt (shapeCast ⟨2, ![n, 1]⟩ _ hc (ix2 p u))) (Ideal.ofBits .f32 0x2B8CBCCC#32) = _
  rw [Cert.LibKeepdims.shapeCast_a_a1_apply, Cert.LibRowReduce.multiReduction_add_row]
  rfl

/-- Each row divided by its floored length. -/
theorem keepdims_unit (v : FVec Ideal ⟨2, ![n, d]⟩ .f32) (hr : (⟨2, ![n, d]⟩ : Shape).Reduces [1] ⟨1, ![n]⟩)
    (hφ : FKind.Formats .f32) (hacc : (0x00000000#32 : BitVec 32) = FKind.add.neutral .f32 hφ)
    (hc : (⟨1, ![n]⟩ : Shape).ShapeCasts ⟨2, ![n, 1]⟩) (hb : (⟨2, ![n, 1]⟩ : Shape).Broadcasts ⟨2, ![n, d]⟩) (p : Fin n) (e : Fin d) :
    (divf v (broadcastTo ⟨2, ![n, d]⟩ (maximumf (sqrt (shapeCast ⟨2, ![n, 1]⟩ (multiReduction .add [1] ⟨1, ![n]⟩ (mulf v v) 0x00000000#32 hr hφ hacc) hc))
      (broadcast ⟨2, ![n, 1]⟩ (FloatOps.ofBits (F := Ideal) .f32 0x2B8CBCCC#32))) hb) : FVec Ideal ⟨2, ![n, d]⟩ .f32) (ix2 p e)
      = unit (fun e' => v (ix2 p e')) e := by
  show Ideal.div (v (ix2 p e)) (broadcastTo ⟨2, ![n, d]⟩ _ hb (ix2 p e)) = _
  rw [Cert.LibKeepdims.broadcastTo_a1_ab_apply, keepdims_len]
  rfl

/-- The largest entry of each row, started at −∞ and taken against −∞ once more — kept as a column and spread back. -/
theorem keepdims_top (s : FVec Ideal ⟨2, ![n, d]⟩ .f32) (hr : (⟨2, ![n, d]⟩ : Shape).Reduces [1] ⟨1, ![n]⟩)
    (hφ : FKind.Formats .f32) (hacc : (0xFF800000#32 : BitVec 32) = FKind.maximumf.neutral .f32 hφ)
    (hc : (⟨1, ![n]⟩ : Shape).ShapeCasts ⟨2, ![n, 1]⟩) (hb : (⟨2, ![n, 1]⟩ : Shape).Broadcasts ⟨2, ![n, d]⟩) (p : Fin n) (k : Fin d) :
    (broadcastTo ⟨2, ![n, d]⟩ (shapeCast ⟨2, ![n, 1]⟩ (maximumf (broadcast ⟨1, ![n]⟩ (FloatOps.ofBits (F := Ideal) .f32 0xFF800000#32))
      (multiReduction .maximumf [1] ⟨1, ![n]⟩ s 0xFF800000#32 hr hφ hacc)) hc) hb : FVec Ideal ⟨2, ![n, d]⟩ .f32) (ix2 p k)
      = top (fun j => s (ix2 p j)) := by
  rw [Cert.LibKeepdims.broadcastTo_a1_ab_apply, Cert.LibKeepdims.shapeCast_a_a1_apply]
  show max (Ideal.ofBits .f32 0xFF800000#32) (multiReduction .maximumf [1] ⟨1, ![n]⟩ s 0xFF800000#32 hr hφ hacc (ix1 p)) = _
  rw [Cert.LibRowReduce.multiReduction_max_row]
  rfl

/-- The softmax along each row. -/
theorem keepdims_soft (s : FVec Ideal ⟨2, ![n, d]⟩ .f32) (hr : (⟨2, ![n, d]⟩ : Shape).Reduces [1] ⟨1, ![n]⟩)
    (hφ : FKind.Formats .f32) (hmax : (0xFF800000#32 : BitVec 32) = FKind.maximumf.neutral .f32 hφ)
    (hφ' : FKind.Formats .f32) (hadd : (0x00000000#32 : BitVec 32) = FKind.add.neutral .f32 hφ')
    (hc : (⟨1, ![n]⟩ : Shape).ShapeCasts ⟨2, ![n, 1]⟩) (hb : (⟨2, ![n, 1]⟩ : Shape).Broadcasts ⟨2, ![n, d]⟩) (p : Fin n) (k : Fin d) :
    (divf (exp (subf s (broadcastTo ⟨2, ![n, d]⟩ (shapeCast ⟨2, ![n, 1]⟩ (maximumf (broadcast ⟨1, ![n]⟩ (FloatOps.ofBits (F := Ideal) .f32 0xFF800000#32))
          (multiReduction .maximumf [1] ⟨1, ![n]⟩ s 0xFF800000#32 hr hφ hmax)) hc) hb)))
      (broadcastTo ⟨2, ![n, d]⟩ (shapeCast ⟨2, ![n, 1]⟩ (multiReduction .add [1] ⟨1, ![n]⟩
        (exp (subf s (broadcastTo ⟨2, ![n, d]⟩ (shapeCast ⟨2, ![n, 1]⟩ (maximumf (broadcast ⟨1, ![n]⟩ (FloatOps.ofBits (F := Ideal) .f32 0xFF800000#32))
          (multiReduction .maximumf [1] ⟨1, ![n]⟩ s 0xFF800000#32 hr hφ hmax)) hc) hb)))
        0x00000000#32 hr hφ' hadd) hc) hb) : FVec Ideal ⟨2, ![n, d]⟩ .f32) (ix2 p k)
      = soft (fun j => s (ix2 p j)) k := by
  have hl : ∀ j : Fin d, (exp (subf s (broadcastTo ⟨2, ![n, d]⟩ (shapeCast ⟨2, ![n, 1]⟩ (maximumf (broadcast ⟨1, ![n]⟩ (FloatOps.ofBits (F := Ideal) .f32 0xFF800000#32))
          (multiReduction .maximumf [1] ⟨1, ![n]⟩ s 0xFF800000#32 hr hφ hmax)) hc) hb)) : FVec Ideal ⟨2, ![n, d]⟩ .f32) (ix2 p j)
        = lifted (fun j => s (ix2 p j)) j := fun j => by
    show Ideal.exp (s (ix2 p j) - broadcastTo ⟨2, ![n, d]⟩ _ hb (ix2 p j)) = _
    rw [keepdims_top]
    rfl
  show Ideal.div (_ : EReal) (broadcastTo ⟨2, ![n, d]⟩ _ hb (ix2 p k)) = _
  rw [Cert.LibKeepdims.broadcastTo_a1_ab_apply, Cert.LibKeepdims.shapeCast_a_a1_apply, Cert.LibRowReduce.multiReduction_add_row]
  simp only [hl]
  rfl

end Rows

/-! ## The block's values -/

/-- The block with its unit axis dropped, read at (p, d). -/
theorem flat_at (x0 : S1x2048x128.Idx → EReal) (p : Fin 2048) (d : Fin 128) :
    shapeCast S2048x128 x0 shapeCasts_S1x2048x128_S2048x128 (ix2 p d) = brows x0 p d :=
  shapeCast_1ab_ab_apply x0 shapeCasts_S1x2048x128_S2048x128 p d

/-- The unit rows of the block. -/
theorem unit_at (x0 : S1x2048x128.Idx → EReal) (p : Fin 2048) (d : Fin 128) :
    k0_pay6 (F := Ideal) x0 (ix2 p d) = unit (brows x0 p) d := by
  unfold k0_pay6
  refine (keepdims_unit (shapeCast S2048x128 x0 shapeCasts_S1x2048x128_S2048x128) _ _ _ _ _ p d).trans ?_
  simp only [flat_at]

/-- The scores of the block's rows. -/
theorem score_at (x0 : S1x2048x128.Idx → EReal) (x1 : S64x128.Idx → EReal) (x2 : S64.Idx → EReal) (p : Fin 2048) (k : Fin 64) :
    (addf (matmul dot_S2048x128_S64x128_S2048x64_1_1_0_0_n_n none (k0_pay6 (F := Ideal) x0) (truncf .bf16 x1 bitsLt_bf16_f32)
        (constant S2048x64 .f32 0x00000000#32))
      (broadcastTo S2048x64 (shapeCast S1x64 x2 shapeCasts_S64_S1x64) broadcasts_S1x64_S2048x64) : FVec Ideal S2048x64 .f32) (ix2 p k)
      = score (mat x1) (vec x2) (unit (brows x0 p)) k := by
  show (matmul dot_S2048x128_S64x128_S2048x64_1_1_0_0_n_n none (k0_pay6 (F := Ideal) x0) (truncf .bf16 x1 bitsLt_bf16_f32)
        (constant S2048x64 .f32 0x00000000#32) (ix2 p k) : EReal)
      + broadcastTo S2048x64 (shapeCast S1x64 x2 shapeCasts_S64_S1x64) broadcasts_S1x64_S2048x64 (ix2 p k) = _
  rw [Cert.LibBiasRow.vec_spread_apply]
  refine congrArg (· + x2 (ix1 k)) ?_
  exact (Cert.LibRowRowDot.matmul_zero_rows_apply dot_S2048x128_S64x128_S2048x64_1_1_0_0_n_n rfl rfl rfl rfl rfl rfl none _ _ p k).trans
    (Finset.sum_congr rfl fun j _ => by rw [unit_at]; rfl)

/-- The assignment weights of the block's rows. -/
theorem assign_at (x0 : S1x2048x128.Idx → EReal) (x1 : S64x128.Idx → EReal) (x2 : S64.Idx → EReal) (p : Fin 2048) (k : Fin 64) :
    k0_pay7 (F := Ideal) x0 x1 x2 (ix2 p k) = assign (mat x1) (vec x2) (brows x0 p) k := by
  unfold k0_pay7
  refine (keepdims_soft (addf (matmul dot_S2048x128_S64x128_S2048x64_1_1_0_0_n_n none (k0_pay6 (F := Ideal) x0) (truncf .bf16 x1 bitsLt_bf16_f32)
        (constant S2048x64 .f32 0x00000000#32))
      (broadcastTo S2048x64 (shapeCast S1x64 x2 shapeCasts_S64_S1x64) broadcasts_S1x64_S2048x64)) _ _ _ _ _ _ _ p k).trans ?_
  unfold assign
  exact congrArg (fun s => soft s k) (funext fun j => score_at x0 x1 x2 p j)

/-- A block adds its gathered rows to the accumulator. -/
theorem gathered_step (x0 : S1x2048x128.Idx → EReal) (x1 : S64x128.Idx → EReal) (x2 : S64.Idx → EReal) (acc : S64x128.Idx → EReal)
    (k : Fin 64) (d : Fin 128) :
    k0_pay1 (F := Ideal) (k0_pay9 (F := Ideal) x0 x1 x2 acc) (ix2 k d) = acc (ix2 k d) + gathered (brows x0) (mat x1) (vec x2) k d := by
  unfold k0_pay1 k0_pay9
  rw [shapeCast_self]
  show acc (ix2 k d) + (matmul dot_S2048x64_S2048x128_S64x128_0_0_1_1_n_n none (k0_pay7 (F := Ideal) x0 x1 x2) (k0_pay6 (F := Ideal) x0)
    (constant S64x128 .f32 0x00000000#32) (ix2 k d) : EReal) = _
  refine congrArg (acc (ix2 k d) + ·) ?_
  exact (Cert.LibColColDot.matmul_zero_cols_apply dot_S2048x64_S2048x128_S64x128_0_0_1_1_n_n rfl rfl rfl rfl rfl rfl none _ _ k d).trans
    (Finset.sum_congr rfl fun p _ => by rw [assign_at, unit_at])

/-- A block adds its mass to the accumulator column: a contraction against a column of ones. -/
theorem mass_step (x0 : S1x2048x128.Idx → EReal) (x1 : S64x128.Idx → EReal) (x2 : S64.Idx → EReal) (acc : S64x1.Idx → EReal)
    (k : Fin 64) (u : Fin 1) :
    k0_pay2 (F := Ideal) (k0_pay8 (F := Ideal) x0 x1 x2) acc (ix2 k u) = acc (ix2 k u) + mass (brows x0) (mat x1) (vec x2) k := by
  unfold k0_pay2 k0_pay8
  rw [shapeCast_self]
  show acc (ix2 k u) + (matmul dot_S2048x64_S2048x1_S64x1_0_0_1_1_n_n none (k0_pay7 (F := Ideal) x0 x1 x2)
    (broadcast S2048x1 (Scalar.ofBits (F := Ideal) .bf16 0x3F80#16)) (constant S64x1 .f32 0x00000000#32) (ix2 k u) : EReal) = _
  refine congrArg (acc (ix2 k u) + ·) ?_
  exact (Cert.LibColColDot.matmul_zero_cols_apply dot_S2048x64_S2048x1_S64x1_0_0_1_1_n_n rfl rfl rfl rfl rfl rfl none _ _ k u).trans
    (Finset.sum_congr rfl fun p _ => by
      rw [assign_at]
      show _ * Ideal.ofBits .bf16 0x3F80#16 = _
      rw [one_word, mul_one])

/-- The gathered accumulator is reset to zero. -/
theorem zero_gathered (k : Fin 64) (d : Fin 128) : k0_pay4 (F := Ideal) (ix2 k d) = 0 := by
  unfold k0_pay4
  rw [shapeCast_self]
  exact Ideal.ofBits_zero_f32

/-- The mass accumulator is reset to zero. -/
theorem zero_mass (k : Fin 64) (u : Fin 1) : k0_pay5 (F := Ideal) (ix2 k u) = 0 := by
  unfold k0_pay5
  rw [shapeCast_self]
  exact Ideal.ofBits_zero_f32

/-- The output block: the residual rows of the two accumulators' values against the centres, scaled to unit length. -/
theorem result_at (g cen : S64x128.Idx → EReal) (μ : S64x1.Idx → EReal) (u : Fin 1) (k : Fin 64) (d : Fin 128) :
    k0_pay3 (F := Ideal) g cen μ (ix3 u k d) = descriptor (mat g) (mat cen) (fun k' => μ (ix2 k' (0 : Fin 1))) k d := by
  unfold k0_pay3
  rw [shapeCast_ab_1ab_apply]
  refine (keepdims_unit (subf g (mulf cen (broadcastTo S64x128 μ broadcasts_S64x1_S64x128))) _ _ _ _ _ k d).trans ?_
  unfold descriptor
  refine congrArg (fun r => unit r d) (funext fun e => ?_)
  show g (ix2 k e) - cen (ix2 k e) * broadcastTo S64x128 μ broadcasts_S64x1_S64x128 (ix2 k e) = _
  rw [Cert.LibKeepdims.broadcastTo_a1_ab_apply]
  rfl

end Cert.KernelIdeal.BlockValues

end
-- ==== Proof.Accumulate.lean ====
/-
  The two accumulators after every grid point, and the output block at a batch's last point.

  The grid runs the 32 batches one after the other, four blocks of 2048 rows each: point t works on block t mod 4 of
  batch t div 4.  After point t the gathered accumulator holds the sum of the gathered rows of blocks 0 … t mod 4 of
  that batch and the mass accumulator the sum of their masses (induction on the point: the first block of a batch
  starts from zero, every later block adds to what the point before left).  After a batch's last block these are the
  batch's gathered rows and mass — a sum over all 8192 rows regrouped into four blocks — and the output block holds the
  batch's descriptor.
-/
import proofs.«114280_j35098472742931_1_alg».proof.Proof.Pieces
import proofs.«114280_j35098472742931_1_alg».proof.Proof.BlockValues

noncomputable section

open scoped BigOperators

namespace Cert.KernelIdeal.Accumulate

open Cert.KernelIdeal Cert.KernelIdeal.Gen Idealize.ShloMosaic Idealize.ShloMosaic.TcCoe Idealize.SL.Sem
open Idealize.ShloMosaic.ValueIdx Cert.Vlad Cert.KernelIdeal.BlockValues

variable (m : (ℓ : Loc nD τ sig) → Buf (Elt Ideal) ℓ) (c : Dev nD)

/-! ## One point, from the point before -/

/-- A batch's first block: both accumulators start from zero. -/
theorem step_first (t : Fin cfg0.N) (h0 : t.val % 4 = 0) :
    (outsAt0 m c t.val t.isLt).2.1 = k0_pay1 (k0_pay9 (iblk m c 0 t) (iblk m c 1 t) (iblk m c 2 t) (k0_pay4 (F := Ideal)))
    ∧ (outsAt0 m c t.val t.isLt).2.2 = k0_pay2 (k0_pay8 (iblk m c 0 t) (iblk m c 1 t) (iblk m c 2 t)) (k0_pay5 (F := Ideal)) := by
  have h1 : ¬t.val % 4 = 3 := by omega
  rw [outsAt0_A m c t h0 h1]
  exact ⟨Pieces.gathered_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t),
    Pieces.mass_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)⟩

/-- A later block: both accumulators add to what the point before left. -/
theorem step_later (t : Fin cfg0.N) (h0 : ¬t.val % 4 = 0) :
    (outsAt0 m c t.val t.isLt).2.1 = k0_pay1 (k0_pay9 (iblk m c 0 t) (iblk m c 1 t) (iblk m c 2 t) (outsAt0 m c (t.val - 1) (Nat.lt_of_le_of_lt (Nat.sub_le _ _) t.isLt)).2.1)
    ∧ (outsAt0 m c t.val t.isLt).2.2 = k0_pay2 (k0_pay8 (iblk m c 0 t) (iblk m c 1 t) (iblk m c 2 t)) (outsAt0 m c (t.val - 1) (Nat.lt_of_le_of_lt (Nat.sub_le _ _) t.isLt)).2.2 := by
  by_cases h1 : t.val % 4 = 3
  · rw [outsAt0_C m c t h0 h1]
    exact ⟨Pieces.gathered_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2,
      Pieces.mass_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2⟩
  · rw [outsAt0_B m c t h0 h1]
    exact ⟨Pieces.gathered_middle (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2,
      Pieces.mass_middle (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2⟩

/-- A batch's last block: the output block is the normalised residual of the accumulators' final values. -/
theorem step_out (t : Fin cfg0.N) (h1 : t.val % 4 = 3) :
    (outsAt0 m c t.val t.isLt).1
      = k0_pay3 (outsAt0 m c t.val t.isLt).2.1 (iblk m c 3 t) (outsAt0 m c t.val t.isLt).2.2 := by
  have h0 : ¬t.val % 4 = 0 := by omega
  rw [outsAt0_C m c t h0 h1]
  dsimp only
  rw [Pieces.result_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2,
    Pieces.gathered_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2,
    Pieces.mass_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2]

/-! ## The blocks the windows hold -/

/-- The rows of batch b (b taken modulo 32) of the descriptor array as the region finds it. -/
def batch (b : ℕ) (p : Fin 8192) (d : Fin 128) : EReal :=
  V m c main_arg0 (ix3 (⟨b % 32, Nat.mod_lt _ (by norm_num)⟩ : Fin 32) p d)
/-- The directions, biases and centres as the region finds them. -/
abbrev dirs : Fin 64 → Fin 128 → EReal := mat (V m c main_arg2)
abbrev biases : Fin 64 → EReal := vec (V m c main_arg3)
abbrev centres : Fin 64 → Fin 128 → EReal := mat (V m c main_arg1)

theorem pos8192 : 0 < 8192 := by norm_num

/-- Where each window's block sits at point t, decided over the grid. -/
theorem idx_rows : ∀ t : Fin cfg0.N, win0_0.index t (0 : Fin 3) = t.val / 4 ∧ win0_0.index t (1 : Fin 3) = t.val % 4 ∧ win0_0.index t (2 : Fin 3) = 0 :=
  (by decide +kernel : ∀ t : Fin grid0.N, _)
theorem idx_dirs : ∀ t : Fin cfg0.N, win0_1.index t (0 : Fin 2) = 0 ∧ win0_1.index t (1 : Fin 2) = 0 :=
  (by decide +kernel : ∀ t : Fin grid0.N, _)
theorem idx_biases : ∀ t : Fin cfg0.N, win0_2.index t (0 : Fin 1) = 0 :=
  (by decide +kernel : ∀ t : Fin grid0.N, _)
theorem idx_centres : ∀ t : Fin cfg0.N, win0_3.index t (0 : Fin 2) = 0 ∧ win0_3.index t (1 : Fin 2) = 0 :=
  (by decide +kernel : ∀ t : Fin grid0.N, _)

/-- The descriptor window at point t holds block t mod 4 of batch t div 4. -/
theorem rows_at (t : Fin cfg0.N) : brows (iblk m c 0 t) = block 2048 pos8192 (batch m c (t.val / 4)) (t.val % 4) := by
  funext p d
  show iblk m c 0 t (ix3 (0 : Fin 1) p d) = V m c main_arg0 (ix3 _ _ d)
  unfold iblk
  rw [View.read_apply]
  refine congrArg (V m c main_arg0) (funext fun a => Fin.ext ?_)
  obtain ⟨e0, e1, e2⟩ := idx_rows t
  have hN : t.val < 128 := lt_of_lt_of_eq t.isLt (show cfg0.N = 128 from N_0)
  match a with
  | ⟨0, _⟩ => show win0_0.index t (0 : Fin 3) * 1 + 1 * 0 = (t.val / 4) % 32; omega
  | ⟨1, _⟩ => show win0_0.index t (1 : Fin 3) * 2048 + 1 * p.val = (2048 * (t.val % 4) + p.val) % 8192; have := p.isLt; omega
  | ⟨2, _⟩ => show win0_0.index t (2 : Fin 3) * 128 + 1 * d.val = d.val; omega

/-- The directions' window holds the whole matrix at every point. -/
theorem dirs_at (t : Fin cfg0.N) : mat (iblk m c 1 t) = dirs m c := by
  funext k d
  show iblk m c 1 t (ix2 k d) = V m c main_arg2 (ix2 k d)
  unfold iblk
  rw [View.read_apply]
  refine congrArg (V m c main_arg2) (funext fun a => Fin.ext ?_)
  obtain ⟨e0, e1⟩ := idx_dirs t
  match a with
  | ⟨0, _⟩ => show win0_1.index t (0 : Fin 2) * 64 + 1 * k.val = k.val; omega
  | ⟨1, _⟩ => show win0_1.index t (1 : Fin 2) * 128 + 1 * d.val = d.val; omega

/-- The biases' window holds the whole vector at every point. -/
theorem biases_at (t : Fin cfg0.N) : vec (iblk m c 2 t) = biases m c := by
  funext k
  show iblk m c 2 t (ix1 k) = V m c main_arg3 (ix1 k)
  unfold iblk
  rw [View.read_apply]
  refine congrArg (V m c main_arg3) (funext fun a => Fin.ext ?_)
  have e0 := idx_biases t
  match a with
  | ⟨0, _⟩ => show win0_2.index t (0 : Fin 1) * 64 + 1 * k.val = k.val; omega

/-- The centres' window holds the whole matrix at every point. -/
theorem centres_at (t : Fin cfg0.N) : mat (iblk m c 3 t) = centres m c := by
  funext k d
  show iblk m c 3 t (ix2 k d) = V m c main_arg1 (ix2 k d)
  unfold iblk
  rw [View.read_apply]
  refine congrArg (V m c main_arg1) (funext fun a => Fin.ext ?_)
  obtain ⟨e0, e1⟩ := idx_centres t
  match a with
  | ⟨0, _⟩ => show win0_3.index t (0 : Fin 2) * 64 + 1 * k.val = k.val; omega
  | ⟨1, _⟩ => show win0_3.index t (1 : Fin 2) * 128 + 1 * d.val = d.val; omega

/-! ## The accumulators after every point -/

/-- A batch's first point leaves its first block's gathered rows and mass. -/
theorem first_point (t : Fin cfg0.N) (h0 : t.val % 4 = 0) (k : Fin 64) (d : Fin 128) (u : Fin 1) :
    (outsAt0 m c t.val t.isLt).2.1 (ix2 k d)
        = ∑ j ∈ Finset.range (t.val % 4 + 1), gathered (block 2048 pos8192 (batch m c (t.val / 4)) j) (dirs m c) (biases m c) k d
    ∧ (outsAt0 m c t.val t.isLt).2.2 (ix2 k u)
        = ∑ j ∈ Finset.range (t.val % 4 + 1), mass (block 2048 pos8192 (batch m c (t.val / 4)) j) (dirs m c) (biases m c) k := by
  obtain ⟨eg, em⟩ := step_first m c t h0
  constructor
  · rw [eg, gathered_step, zero_gathered, zero_add, rows_at, dirs_at, biases_at, h0, Finset.sum_range_one]
  · rw [em, mass_step, zero_mass, zero_add, rows_at, dirs_at, biases_at, h0, Finset.sum_range_one]

/-- After point n the accumulators hold the sums over blocks 0 … n mod 4 of batch n div 4. -/
theorem acc_eq : ∀ (n : ℕ) (hn : n < cfg0.N) (k : Fin 64) (d : Fin 128) (u : Fin 1),
    (outsAt0 m c n hn).2.1 (ix2 k d)
        = ∑ j ∈ Finset.range (n % 4 + 1), gathered (block 2048 pos8192 (batch m c (n / 4)) j) (dirs m c) (biases m c) k d
    ∧ (outsAt0 m c n hn).2.2 (ix2 k u)
        = ∑ j ∈ Finset.range (n % 4 + 1), mass (block 2048 pos8192 (batch m c (n / 4)) j) (dirs m c) (biases m c) k
  | 0, hn, k, d, u => first_point m c ⟨0, hn⟩ rfl k d u
  | n + 1, hn, k, d, u => by
    by_cases h0 : (n + 1) % 4 = 0
    · exact first_point m c ⟨n + 1, hn⟩ h0 k d u
    · obtain ⟨eg, em⟩ := step_later m c ⟨n + 1, hn⟩ h0
      obtain ⟨ig, im⟩ := acc_eq n (Nat.lt_of_succ_lt hn) k d u
      have hq : n / 4 = (n + 1) / 4 := by omega
      have hr : n % 4 + 1 = (n + 1) % 4 := by omega
      rw [hq, hr] at ig im
      constructor
      · rw [eg, gathered_step, Finset.sum_range_succ, rows_at, dirs_at, biases_at]
        exact congrArg (· + _) ig
      · rw [em, mass_step, Finset.sum_range_succ, rows_at, dirs_at, biases_at]
        exact congrArg (· + _) im

/-- After a batch's last block the gathered accumulator holds the batch's gathered rows. -/
theorem gathered_final (t : Fin cfg0.N) (h1 : t.val % 4 = 3) (k : Fin 64) (d : Fin 128) :
    (outsAt0 m c t.val t.isLt).2.1 (ix2 k d) = gathered (batch m c (t.val / 4)) (dirs m c) (biases m c) k d := by
  rw [(acc_eq m c t.val t.isLt k d 0).1, h1]
  exact gathered_blocks 4 2048 (by norm_num) pos8192 _ _ _ k d

/-- After a batch's last block the mass accumulator holds the batch's mass. -/
theorem mass_final (t : Fin cfg0.N) (h1 : t.val % 4 = 3) (k : Fin 64) (u : Fin 1) :
    (outsAt0 m c t.val t.isLt).2.2 (ix2 k u) = mass (batch m c (t.val / 4)) (dirs m c) (biases m c) k := by
  rw [(acc_eq m c t.val t.isLt k 0 u).2, h1]
  exact mass_blocks 4 2048 (by norm_num) pos8192 _ _ _ k

/-- After a batch's last block the output block holds the batch's descriptor. -/
theorem out_at (t : Fin cfg0.N) (h1 : t.val % 4 = 3) (u : Fin 1) (k : Fin 64) (d : Fin 128) :
    (outsAt0 m c t.val t.isLt).1 (ix3 u k d)
      = vlad (batch m c (t.val / 4)) (centres m c) (dirs m c) (biases m c) k d := by
  rw [step_out m c t h1, result_at, centres_at]
  unfold vlad
  have eg : mat (outsAt0 m c t.val t.isLt).2.1 = gathered (batch m c (t.val / 4)) (dirs m c) (biases m c) :=
    funext fun k' => funext fun d' => gathered_final m c t h1 k' d'
  have em : (fun k' : Fin 64 => (outsAt0 m c t.val t.isLt).2.2 (ix2 k' (0 : Fin 1))) = mass (batch m c (t.val / 4)) (dirs m c) (biases m c) :=
    funext fun k' => mass_final m c t h1 k' 0
  rw [eg, em]

end Cert.KernelIdeal.Accumulate

end
-- ==== Proof.KernelResult.lean ====
/-
  The kernel's result as one function of its four argument arrays.

  The output array [32, 64, 128] is written back once per batch, at the batch's last grid point, block (b, ·, ·): those
  32 blocks tile it, and block b holds batch b's descriptor, so after the region the array is the specification's whole
  array.  The host lines after the region flatten it and scale each flattened row to unit length (`finish`); they read
  nothing else.
-/
import proofs.«114280_j35098472742931_1_alg».proof.Proof.Accumulate
import Idealize.ShloMosaic.Lib.StableHlo.Run

noncomputable section

open scoped BigOperators

namespace Cert.KernelIdeal.Result

open Cert.KernelIdeal Cert.KernelIdeal.Gen Idealize.ShloMosaic Idealize.ShloMosaic.TcCoe Idealize.SL.Sem
open Idealize.ShloMosaic.ValueIdx Cert.Vlad Cert.KernelIdeal.Accumulate
open Idealize.ShloMosaic.Pipeline (Dat)

variable (m : (ℓ : Loc nD τ sig) → Buf (Elt Ideal) ℓ) (ρ : Dev nD → PrngReg)

/-- The last normalisation: the descriptor flattened to [32, 8192] and each row divided by its floored length. -/
def finish (v : FVec Ideal S32x64x128 .f32) : FVec Ideal S32x8192 .f32 :=
  Host.divf (F := Ideal) (shapeCast S32x8192 v shapeCasts_S32x64x128_S32x8192)
    (broadcastInDim S32x8192 ![0, 1] bcast_S32x1_S32x8192_0_1
      (maximumf (Host.sqrt (F := Ideal) (broadcastInDim S32x1 ![0] bcast_S32_S32x1_0
          (Host.reduceAdd (F := Ideal) (mulf (shapeCast S32x8192 v shapeCasts_S32x64x128_S32x8192) (shapeCast S32x8192 v shapeCasts_S32x64x128_S32x8192))
            (constant (F := Ideal) S_ .f32 0x00000000#32) reducesTo_S32x8192_S32_d1 h_S_)))
        (broadcastInDim S32x1 ![] bcast_S_S32x1 (constant (F := Ideal) S_ .f32 0x2B8CBCCC#32))))

/-- The whole array of the specification, of the argument arrays as the region finds them. -/
abbrev target (c : Dev nD) : S32x64x128.Idx → EReal :=
  whole (V m c main_arg0) (V m c main_arg1) (V m c main_arg2) (V m c main_arg3)

/-- Where the output window's block sits at point t, decided over the grid. -/
theorem idx_out : ∀ t : Fin cfg0.N, win0_4.index t (0 : Fin 3) = t.val / 4 ∧ win0_4.index t (1 : Fin 3) = 0 ∧ win0_4.index t (2 : Fin 3) = 0 :=
  (by decide +kernel : ∀ t : Fin grid0.N, _)

/-- What a batch's last point writes back is block (b, ·, ·) of the specification's array. -/
theorem flushed_eq (c : Dev nD) (t : Fin cfg0.N) (hf : (cfg0.win 4).flush t = true) :
    (dats m 0 c).flushed 4 t = ((cfg0.win 4).blk t).view.read (Elt Ideal) (target m c) := by
  have h1 : t.val % 4 = 3 := (flush0_4 t).mp hf
  have hN : t.val < 128 := lt_of_lt_of_eq t.isLt (show cfg0.N = 128 from N_0)
  show (cfg0.win 4).cut (grid0.coords t) ((dats m 0 c).after 4 t) = _
  rw [after0_4]
  funext y
  obtain ⟨u, k, d, rfl⟩ : ∃ (u : Fin 1) (k : Fin 64) (d : Fin 128), y = ix3 u k d := ⟨y 0, y 1, y 2, eq_ix3 y⟩
  rw [View.read_apply]
  obtain ⟨e0, e1, e2⟩ := idx_out t
  have he : ((cfg0.win 4).blk t).view.emb (ix3 u k d) = ix3 (⟨(t.val / 4) % 32, Nat.mod_lt _ (by norm_num)⟩ : Fin 32) k d := by
    funext a; apply Fin.ext
    match a with
    | ⟨0, _⟩ => show win0_4.index t (0 : Fin 3) * 1 + 1 * u.val = (t.val / 4) % 32; have := u.isLt; omega
    | ⟨1, _⟩ => show win0_4.index t (1 : Fin 3) * 64 + 1 * k.val = k.val; omega
    | ⟨2, _⟩ => show win0_4.index t (2 : Fin 3) * 128 + 1 * d.val = d.val; omega
  rw [he]
  exact out_at m c t h1 u k d

/-- An index of the array is in point t's block iff each coordinate is in the block's range on its axis. -/
theorem mem_blk (t : Fin cfg0.N) (i : S32x64x128.Idx) :
    i ∈ ((cfg0.win 4).blk t).view.set ↔ ∀ a : Fin 3, win0_4.index t a * S1x64x128.size a ≤ (i a).val ∧ (i a).val < win0_4.index t a * S1x64x128.size a + S1x64x128.size a := by
  show i ∈ ((View.whole main_v0).slice (win0_4.rect t)).set ↔ _
  rw [View.set_slice_whole, Rect.mem_set_unit]
  exact Iff.rfl

/-- After the region the output array is the specification's whole array: batch b's block is written at point 4b + 3. -/
theorem final_o (c : Dev nD) : (dats m 0 c).arrAt 4 cfg0.N = target m c :=
  (dats m 0 c).arrAt_eq_of_cover 4 (target m c) (flushed_eq m c) fun i => by
    have hi0 : (i 0).val < 32 := (i 0).isLt
    have hi1 : (i 1).val < 64 := (i 1).isLt
    have hi2 : (i 2).val < 128 := (i 2).isLt
    have hN : grid0.N = 128 := N_0
    have hN' : cfg0.N = 128 := N_0
    refine ⟨⟨4 * (i 0).val + 3, by omega⟩, (flush0_4 _).mpr (by show (4 * (i 0).val + 3) % 4 = 3; omega), ?_⟩
    rw [mem_blk]
    obtain ⟨e0, e1, e2⟩ := idx_out ⟨4 * (i 0).val + 3, by omega⟩
    have e0' : win0_4.index ⟨4 * (i 0).val + 3, by omega⟩ (0 : Fin 3) = (i 0).val := by rw [e0]; show (4 * (i 0).val + 3) / 4 = (i 0).val; omega
    intro a
    match a with
    | ⟨0, _⟩ => show win0_4.index _ (0 : Fin 3) * 1 ≤ (i 0).val ∧ (i 0).val < win0_4.index _ (0 : Fin 3) * 1 + 1; omega
    | ⟨1, _⟩ => show win0_4.index _ (1 : Fin 3) * 64 ≤ (i 1).val ∧ (i 1).val < win0_4.index _ (1 : Fin 3) * 64 + 64; omega
    | ⟨2, _⟩ => show win0_4.index _ (2 : Fin 3) * 128 ≤ (i 2).val ∧ (i 2).val < win0_4.index _ (2 : Fin 3) * 128 + 128; omega

/-- The host lines after the region leave, in the result buffer, the last normalisation of the output array. -/
theorem tail_eq (c : Dev nD) :
    Pipeline.afterTail₀ cfgs (dats m) 0 (V0 m) [hostOps1] c main_v9 = finish (target m c) := by
  unfold Pipeline.afterTail₀
  show StableHlo.after hostOps1 _ (Proc.devRef .tc main_v9) = _
  after_results
  have e : Pipeline.withArrays (cfgs 0).spec c (V0 m c) (fun w => (dats m 0 c).arrAt w (cfgs 0).N) (Proc.tc.devRef main_v0) = target m c :=
    (Pipeline.withArrays_arr spec0 launch0.win.arr_inj c _ _ 4).trans (final_o m c)
  rw [e]
  rfl

/-- The run, read: the result buffer at the last normalisation of the specification's whole array of the arguments, the
    arguments unchanged. -/
theorem run : θ_run defs (onTc (τ := τ) (main (F := Ideal))) ⟨m, fun _ => 0, ρ⟩ fun r => ∀ c : Dev nD,
      r.2.mem ((c.tc : Thread nD τ).loc main_v9)
        = finish (whole (m ((c.tc : Thread nD τ).loc main_arg0)) (m ((c.tc : Thread nD τ).loc main_arg1))
            (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v9 (Pipeline.mem_restRefs_of main_v9 rfl (by decide))).trans (tail_eq m c),
      ((h c).1 0).trans (((dats m 0 c).arrAt_in 0 rfl _).trans ((A_eq m c 0).trans (V_main_arg0 m c))),
      ((h c).1 3).trans (((dats m 0 c).arrAt_in 3 rfl _).trans ((A_eq m c 3).trans (V_main_arg1 m c))),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c)))⟩)
    (run_main m ρ)

end Cert.KernelIdeal.Result

end
-- ==== Proof.lean ====
/-
  A descriptor-aggregation kernel against its array-level reference, on the extended reals.

  Each of 32 batches holds 8192 descriptor rows of length 128.  A row is scaled to unit length (its length floored at a
  small positive word), scored against 64 cluster directions with a bias, and softmaxed into assignment weights; per
  cluster the weighted unit rows and the weights are summed over the batch, the cluster's centre times the weight
  mass is subtracted, each residual row is scaled to unit length, and finally the flattened 64 × 128 residuals of a batch
  are scaled to unit length once more.

  The reference computes this with whole-array operations.  The kernel walks each batch in four blocks of 2048 rows,
  adding each block's weighted sums into two accumulators that start from zero (the weight mass as a contraction
  against a column of ones), writes the batch's residual rows at its last block, and leaves the last scaling to the
  host.  The two agree because a sum over 8192 rows is the sum over four blocks of the blocks' sums, zero plus a value is
  the value, and a weight times one is the weight — laws of every additive commutative monoid and of the
  extended reals' product by one, so no input needs to be finite for the values to agree.

  Modules: Vlad (the specification and the regrouping law), RefStages (the reference's arrays at coordinates),
  Pieces (what one grid point leaves in the accumulators and the output block), BlockValues (one block's arithmetic at
  coordinates), Accumulate (the accumulators after every grid point, by induction), KernelResult (the output array and
  the run with the host's last scaling), and here the five claims.  The frames and the reference's run are the
  generated modules'.
-/
import proofs.«114280_j35098472742931_1_alg».proof.Defs
import proofs.«114280_j35098472742931_1_alg».proof.Proof.Gen.Kernel
import proofs.«114280_j35098472742931_1_alg».proof.Proof.Gen.Kernel.Skeleton
import proofs.«114280_j35098472742931_1_alg».proof.Proof.Gen.Kernel.Launch
import proofs.«114280_j35098472742931_1_alg».proof.Proof.Gen.Kernel.Points
import proofs.«114280_j35098472742931_1_alg».proof.Proof.Gen.Kernel.Frame
import proofs.«114280_j35098472742931_1_alg».proof.Proof.Gen.KernelIdeal
import proofs.«114280_j35098472742931_1_alg».proof.Proof.Gen.KernelIdeal.Skeleton
import proofs.«114280_j35098472742931_1_alg».proof.Proof.Gen.KernelIdeal.Launch
import proofs.«114280_j35098472742931_1_alg».proof.Proof.Gen.KernelIdeal.Points
import proofs.«114280_j35098472742931_1_alg».proof.Proof.Gen.KernelIdeal.Frame
import proofs.«114280_j35098472742931_1_alg».proof.Proof.Gen.ReferenceIdeal
import proofs.«114280_j35098472742931_1_alg».proof.Proof.Gen.Pre_finite_inputs
import proofs.«114280_j35098472742931_1_alg».proof.Proof.RefStages
import proofs.«114280_j35098472742931_1_alg».proof.Proof.KernelResult
import Idealize.ShloMosaic.Adequacy
import Idealize.ShloMosaic.Init

noncomputable section

namespace Cert.Proof

open Idealize.ShloMosaic Idealize.SL.Sem

/-- The reference's result is the last scaling of the specification's whole array: its stages up to the residual rows
    are that array (`whole_eq`), and its remaining lines are the kernel's host lines. -/
theorem reference_result (x0 : Cert.ReferenceIdeal.S32x8192x128.Idx → EReal) (x1 x2 : Cert.ReferenceIdeal.S64x128.Idx → EReal)
    (x3 : Cert.ReferenceIdeal.S64.Idx → EReal) :
    Cert.ReferenceIdeal.Read.val_main_v47 (F := Ideal) x0 x1 x2 x3 = Cert.KernelIdeal.Result.finish (Cert.Vlad.whole x0 x1 x2 x3) := by
  rw [← Cert.ReferenceIdeal.RefStages.whole_eq]
  rfl

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the last scaling of the specification's whole array of arguments that agree. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v47_eq, reference_result, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
